-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S128x1024 .f32 .bf16
  ∧ IdealRules.truncf_extf.Statement Cert.KernelIdeal.S128x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x2048 : Shape := ⟨2, ![2048, 2048]⟩
abbrev S2048 : Shape := ⟨1, ![2048]⟩
abbrev S3072x1024 : Shape := ⟨2, ![3072, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S3072x1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S3072x1024 .f32 := Host.absf main_arg11
  let main_cst_20 : FVec F S_ .f32 := constant S_ .f32 0x7F800000#32
  let main_v55 : FVec F S3072x1024 .f32 := broadcastInDim S3072x1024 ![] bcast_S_S3072x1024 main_cst_20
  let main_v56 : IVec S3072x1024 1 := cmpf .olt main_v54 main_v55
  let main_c_21 : IVec S_ 1 := constantI S_ 1 1#1
  let main_v57 : IVec S_ 1 := (fun x v => Host.reduce IntOp.andi x v reducesTo_S3072x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S3072x1024 .f32) (main_arg8 : FVec F S1024 .f32) (main_arg9 : FVec F S3072x1024 .f32) (main_arg10 : FVec F S1024 .f32) (main_arg11 : FVec F S3072x1024 .f32) (main_arg12 : FVec F S1024 .f32) (main_v33 : IVec S_ 1) : IVec S_ 1 :=
  let main_v34 : FVec F S3072x1024 .f32 := Host.absf main_arg7
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S3072x1024 .f32 := Host.absf main_arg9
  let main_cst_16 : FVec F S_ .f32 := constant S_ .f32 0x7F800000#32
  let main_v45 : FVec F S3072x1024 .f32 := broadcastInDim S3072x1024 ![] bcast_S_S3072x1024 main_cst_16
  let main_v46 : IVec S3072x1024 1 := cmpf .olt main_v44 main_v45
  let main_c_17 : IVec S_ 1 := constantI S_ 1 1#1
  let main_v47 : IVec S_ 1 := (fun x v => Host.reduce IntOp.andi x v reducesTo_S3072x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S2048 .f32) (main_arg5 : FVec F S2048 .f32) (main_arg6 : FVec F S2048 .f32) (main_arg7 : FVec F S3072x1024 .f32) (main_arg8 : FVec F S1024 .f32) (main_arg9 : FVec F S3072x1024 .f32) (main_arg10 : FVec F S1024 .f32) (main_arg11 : FVec F S3072x1024 .f32) (main_arg12 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x1024 .f32) (main_arg1 : FVec F S4096x1024 .f32) (main_arg2 : FVec F S4096x2048 .f32) (main_arg3 : FVec F S2048x2048 .f32) (main_arg4 : FVec F S2048 .f32) (main_arg5 : FVec F S2048 .f32) (main_arg6 : FVec F S2048 .f32) (main_arg7 : FVec F S3072x1024 .f32) (main_arg8 : FVec F S1024 .f32) (main_arg9 : FVec F S3072x1024 .f32) (main_arg10 : FVec F S1024 .f32) (main_arg11 : FVec F S3072x1024 .f32) (main_arg12 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_v13 main_v16
-- ==== Kernel.lean ====
abbrev S4096x1024 : Shape := ⟨2, ![4096, 1024]⟩
abbrev S4096x2048 : Shape := ⟨2, ![4096, 2048]⟩
abbrev S2048x2048 : Shape := ⟨2, ![2048, 2048]⟩
abbrev S2048 : Shape := ⟨1, ![2048]⟩
abbrev S3072x1024 : Shape := ⟨2, ![3072, 1024]⟩
abbrev S1024 : Shape := ⟨1, ![1024]⟩
abbrev S1024x2048 : Shape := ⟨2, ![1024, 2048]⟩
abbrev S2048x1024 : Shape := ⟨2, ![2048, 1024]⟩
abbrev S1024x1024 : Shape := ⟨2, ![1024, 1024]⟩
abbrev S1x2048 : Shape := ⟨2, ![1, 2048]⟩
abbrev S1x1024 : Shape := ⟨2, ![1, 1024]⟩
abbrev S128x1024 : Shape := ⟨2, ![128, 1024]⟩
abbrev S128x2048 : Shape := ⟨2, ![128, 2048]⟩

abbrev nBuf : Space → Nat
  | .hbm => 43
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S3072x1024, .f32⟩
  | .hbm, ⟨8, _⟩ => ⟨S1024, .f32⟩
  | .hbm, ⟨9, _⟩ => ⟨S3072x1024, .f32⟩
  | .hbm, ⟨10, _⟩ => ⟨S1024, .f32⟩
  | .hbm, ⟨11, _⟩ => ⟨S3072x1024, .f32⟩
  | .hbm, ⟨12, _⟩ => ⟨S1024, .f32⟩
  | .hbm, ⟨13, _⟩ => ⟨S1024x2048, .f32⟩
  | .hbm, ⟨14, _⟩ => ⟨S1024x2048, .f32⟩
  | .hbm, ⟨15, _⟩ => ⟨S1024x2048, .bf16⟩
  | .hbm, ⟨16, _⟩ => ⟨S1024x2048, .f32⟩
  | .hbm, ⟨17, _⟩ => ⟨S1024x2048, .f32⟩
  | .hbm, ⟨18, _⟩ => ⟨S1024x2048, .bf16⟩
  | .hbm, ⟨19, _⟩ => ⟨S1024x2048, .bf16⟩
  | .hbm, ⟨20, _⟩ => ⟨S1024x2048, .f32⟩
  | .hbm, ⟨21, _⟩ => ⟨S1024x2048, .f32⟩
  | .hbm, ⟨22, _⟩ => ⟨S1024x2048, .bf16⟩
  | .hbm, ⟨23, _⟩ => ⟨S2048x1024, .f32⟩
  | .hbm, ⟨24, _⟩ => ⟨S1024x1024, .f32⟩
  | .hbm, ⟨25, _⟩ => ⟨S2048x1024, .f32⟩
  | .hbm, ⟨26, _⟩ => ⟨S1024x1024, .f32⟩
  | .hbm, ⟨27, _⟩ => ⟨S2048x2048, .f32⟩
  | .hbm, ⟨28, _⟩ => ⟨S2048x2048, .bf16⟩
  | .hbm, ⟨29, _⟩ => ⟨S1024x2048, .f32⟩
  | .hbm, ⟨30, _⟩ => ⟨S1024x2048, .bf16⟩
  | .hbm, ⟨31, _⟩ => ⟨S2048, .f32⟩
  | .hbm, ⟨32, _⟩ => ⟨S1x2048, .f32⟩
  | .hbm, ⟨33, _⟩ => ⟨S2048x1024, .f32⟩
  | .hbm, ⟨34, _⟩ => ⟨S2048x1024, .bf16⟩
  | .hbm, ⟨35, _⟩ => ⟨S1024x1024, .f32⟩
  | .hbm, ⟨36, _⟩ => ⟨S1024x1024, .bf16⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x1024, .f32⟩
  | .hbm, ⟨41, _⟩ => ⟨S4096x1024, .f32⟩
  | .hbm, ⟨42, _⟩ => ⟨S4096x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S2048x2048, .bf16⟩
  | .local _ .vmem, ⟨14, _⟩ => ⟨S1024x2048, .bf16⟩
  | .local _ .vmem, ⟨15, _⟩ => ⟨S1x2048, .f32⟩
  | .local _ .vmem, ⟨16, _⟩ => ⟨S2048x1024, .bf16⟩
  | .local _ .vmem, ⟨17, _⟩ => ⟨S1024x1024, .bf16⟩
  | .local _ .vmem, ⟨18, _⟩ => ⟨S1x1024, .f32⟩
  | .local _ .vmem, ⟨19, _⟩ => ⟨S128x1024, .f32⟩
  | .local _ .vmem, ⟨20, _⟩ => ⟨S128x1024, .f32⟩
  | .local _ .vmem, ⟨21, _⟩ => ⟨S128x2048, .f32⟩
  | .local _ .vmem, ⟨22, _⟩ => ⟨S128x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2048x2048_S1024x2048_0_0 : S2048x2048.Slices ![0, 0] S1024x2048
  slices_S2048x2048_S1024x2048_1024_0 : S2048x2048.Slices ![1024, 0] S1024x2048
  bitsLt_bf16_f32 : FTy.bits .bf16 < FTy.bits .f32
  slices_S3072x1024_S2048x1024_0_0 : S3072x1024.Slices ![0, 0] S2048x1024
  slices_S3072x1024_S1024x1024_2048_0 : S3072x1024.Slices ![2048, 0] S1024x1024
  concatenates_S2048x1024_S2048x1024_S2048x2048_d1 : Shape.Concatenates [S2048x1024, S2048x1024] S2048x2048 1
  concatenates_S1024x1024_S1024x1024_S1024x2048_d1 : Shape.Concatenates [S1024x1024, S1024x1024] S1024x2048 1
  concatenates_S1024_S1024_S2048_d0 : Shape.Concatenates [S1024, S1024] S2048 0
  shapeCasts_S2048_S1x2048 : S2048.ShapeCasts S1x2048
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S128x2048_S128x2048_0_0 : ∀ a, (![0, 0] : Fin 2 → Nat) a + S128x2048.size a ≤ S128x2048.size a
  h_S128x2048 : 0 < S128x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  natLt_1_32 : 1 < 32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  slices_S128x2048_o0_0_S128x1024 : S128x2048.Slices ![0, 0] S128x1024
  slices_S128x2048_o0_1024_S128x1024 : S128x2048.Slices ![0, 1024] S128x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x2048_S128x2048_1_0_0_1_n_n_wf : DotDims.WF S128x1024 S1024x2048 S128x2048 [1] [0] [0] [1] [] []
  dot_S128x2048_S2048x2048_S128x2048_1_0_0_1_n_n_wf : DotDims.WF S128x2048 S2048x2048 S128x2048 [1] [0] [0] [1] [] []
  dot_S128x2048_S2048x1024_S128x1024_1_0_0_1_n_n_wf : DotDims.WF S128x2048 S2048x1024 S128x1024 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .f32 = 32 ∨ (Rect.block (s := S4096x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x2048.size a ≤ S2048x2048.size a
  hwx0_10 : ∀ i : grid0.Coords, EltTy.bits .bf16 = 32 ∨ (Rect.block (s := S2048x2048) S2048x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x2048.size a ≤ S1024x2048.size a
  hwx0_11 : ∀ i : grid0.Coords, EltTy.bits .bf16 = 32 ∨ (Rect.block (s := S1024x2048) S1024x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2048x1024.size a ≤ S2048x1024.size a
  hwx0_13 : ∀ i : grid0.Coords, EltTy.bits .bf16 = 32 ∨ (Rect.block (s := S2048x1024) S2048x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S1024x1024.size a
  hwx0_14 : ∀ i : grid0.Coords, EltTy.bits .bf16 = 32 ∨ (Rect.block (s := S1024x1024) S1024x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1024.size a ≤ S4096x1024.size a
  hwx0_16 : ∀ i : grid0.Coords, EltTy.bits .f32 = 32 ∨ (Rect.block (s := S4096x1024) S128x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x2048.size a ≤ S4096x2048.size a
  hwx0_17 : ∀ i : grid0.Coords, EltTy.bits .f32 = 32 ∨ (Rect.block (s := S4096x2048) S128x2048.size (cc0_transform_17 i) (hinb0_17 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S2048x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1024x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S2048x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S1024x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v28_0) S128x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v28_1) S128x2048.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x2048 : Shape := ⟨2, ![2048, 2048]⟩
abbrev S2048 : Shape := ⟨1, ![2048]⟩
abbrev S3072x1024 : Shape := ⟨2, ![3072, 1024]⟩
abbrev S1024 : Shape := ⟨1, ![1024]⟩
abbrev S1x2048 : Shape := ⟨2, ![1, 2048]⟩
abbrev S_ : Shape := ⟨0, ![]⟩
abbrev S4096x3072 : Shape := ⟨2, ![4096, 3072]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S3072x1024, .f32⟩
  | .hbm, ⟨8, _⟩ => ⟨S1024, .f32⟩
  | .hbm, ⟨9, _⟩ => ⟨S3072x1024, .f32⟩
  | .hbm, ⟨10, _⟩ => ⟨S1024, .f32⟩
  | .hbm, ⟨11, _⟩ => ⟨S3072x1024, .f32⟩
  | .hbm, ⟨12, _⟩ => ⟨S1024, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .i1⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x3072, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x3072, .f32⟩
  | .hbm, ⟨64, _⟩ => ⟨S4096x1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_cst : Ref sig .tc := ⟨.hbm, 22, rfl⟩
abbrev main_call0_v0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  concatenates_S4096x2048_S4096x1024_S4096x3072_d1 : Shape.Concatenates [S4096x2048, S4096x1024] S4096x3072 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S2048x2048_S4096x2048_1_0_0_1_n_n_wf : DotDims.WF S4096x2048 S2048x2048 S4096x2048 [1] [0] [0] [1] [] []
  dot_S4096x3072_S3072x1024_S4096x1024_1_0_0_1_n_n_wf : DotDims.WF S4096x3072 S3072x1024 S4096x1024 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x3072_S3072x1024_S4096x1024_1_0_0_1_n_n : DotDims S4096x3072 S3072x1024 S4096x1024 where
  lhsContracting := [1]
  rhsContracting := [0]
  lhsNonContracting := [0]
  rhsNonContracting := [1]
  lhsBatch := []
  rhsBatch := []
  wf := dot_S4096x3072_S3072x1024_S4096x1024_1_0_0_1_n_n_wf

class Facts : Prop extends Facts₀ where

variable [Facts]
-- ==== Proof.Spec.lean ====
/-
  The gated recurrent cell both programs compute, as ONE function of the argument arrays on the extended reals, entry by entry.

  With `x` (R×1024), `h` (R×1024), `pot` (R×2048) the three activations, `Win` (2048×2048), `bin`, `tresh`, `decay` (2048) the input
  layer and `Wz`, `Wr`, `Wn` (3072×1024), `bz`, `br`, `bn` (1024) the three gates, row `b` of the result depends on row `b` of the
  activations only:

    p   = pot + ((x · Win[0:1024] + h · Win[1024:2048]) + bin)          the potential before the threshold
    s   = 1 where tresh < p, else 0                                     the spike
    a   = s · p                                                        what a spiking unit passes on
    pot' = p · (1 − s) · decay                                          the potential a silent unit keeps
    z   = σ((a · Wz[0:2048] + h · Wz[2048:3072]) + bz),  r likewise with Wr, br
    n   = tanh((a · Wn[0:2048] + (h ∘ r) · Wn[2048:3072]) + bn)
    h'  = (1 − z) · h + z · n

  where `u · W[lo:hi]` is the sum over `k` of `u b k * W (lo + k) j`, `σ` the logistic function and `∘` the entrywise product.
  The number of rows `R` is a parameter: the arrays have 4096 rows, a block of them 128, and a row of the result reads
  only that row of the activations (`potNext_congr`, `hNext_congr`), so a block of the result is the cell of the blocks.
  Sums are written with the association above; the extended reals' addition is commutative and associative everywhere
  (infinities included), so either program's own grouping is brought to it without any finiteness.
-/
import Idealize.ShloMosaic.PureOps.Ideal
import Idealize.ShloMosaic.Lib.ValueIdx

noncomputable section

open scoped BigOperators

namespace Cert.GatedCell

open Idealize.ShloMosaic Idealize.ShloMosaic.ValueIdx

/-- A matrix of extended reals of literal extents `a × b`. -/
abbrev Mat (a b : Nat) : Type := (⟨2, ![a, b]⟩ : Shape).Idx → EReal
/-- A vector of extended reals of literal extent `a`. -/
abbrev Row (a : Nat) : Type := (⟨1, ![a]⟩ : Shape).Idx → EReal

/-! ## Rows of the stacked weight matrices -/

/-- Row `k` of the upper half of the input layer's matrix (the rows that meet `x`). -/
abbrev inX (k : Fin 1024) : Fin 2048 := ⟨k.val, by have := k.isLt; omega⟩
/-- Row `1024 + k` of the input layer's matrix (the rows that meet `h`). -/
abbrev inH (k : Fin 1024) : Fin 2048 := ⟨1024 + k.val, by have := k.isLt; omega⟩
/-- Row `k` of the upper two thirds of a gate's matrix (the rows that meet the activated potential). -/
abbrev gateA (k : Fin 2048) : Fin 3072 := ⟨k.val, by have := k.isLt; omega⟩
/-- Row `2048 + k` of a gate's matrix (the rows that meet the hidden state). -/
abbrev gateH (k : Fin 1024) : Fin 3072 := ⟨2048 + k.val, by have := k.isLt; omega⟩

/-! ## The input layer and the threshold -/

/-- The spike: `1` where the potential `p` exceeds the threshold `t`, else `0`. -/
def spike (p t : EReal) : EReal := if t < p then 1 else 0

variable {R : Nat}

/-- The potential before the threshold, entry `(b, j)`. -/
def potTmp (x h : Mat R 1024) (pot : Mat R 2048) (Win : Mat 2048 2048) (bin : Row 2048) (b : Fin R) (j : Fin 2048) : EReal :=
  pot (ix2 b j) + (((∑ k : Fin 1024, x (ix2 b k) * Win (ix2 (inX k) j)) + (∑ k : Fin 1024, h (ix2 b k) * Win (ix2 (inH k) j)))
    + bin (ix1 j))

/-- What unit `(b, j)` passes on: its potential if it spikes, else `0`. -/
def activated (x h : Mat R 1024) (pot : Mat R 2048) (Win : Mat 2048 2048) (bin tresh : Row 2048) (b : Fin R) (j : Fin 2048) : EReal :=
  spike (potTmp x h pot Win bin b j) (tresh (ix1 j)) * potTmp x h pot Win bin b j

/-- The potential unit `(b, j)` keeps: its potential, decayed, if it is silent, else `0`. -/
def potNext (x h : Mat R 1024) (pot : Mat R 2048) (Win : Mat 2048 2048) (bin tresh decay : Row 2048) (b : Fin R) (j : Fin 2048) : EReal :=
  potTmp x h pot Win bin b j * (1 - spike (potTmp x h pot Win bin b j) (tresh (ix1 j))) * decay (ix1 j)

/-! ## The gates -/

/-- A gate before its nonlinearity, entry `(b, n)`: the activated potentials `A` against the matrix's upper rows, the
    state-side input `u` against its lower rows, and the bias. -/
def gatePre (A : Fin R → Fin 2048 → EReal) (u : Fin R → Fin 1024 → EReal) (W : Mat 3072 1024) (bias : Row 1024) (b : Fin R) (n : Fin 1024) : EReal :=
  ((∑ k : Fin 2048, A b k * W (ix2 (gateA k) n)) + (∑ k : Fin 1024, u b k * W (ix2 (gateH k) n))) + bias (ix1 n)

/-- The new hidden state, entry `(b, n)`. -/
def hNext (x h : Mat R 1024) (pot : Mat R 2048) (Win : Mat 2048 2048) (bin tresh : Row 2048)
    (Wz : Mat 3072 1024) (bz : Row 1024) (Wr : Mat 3072 1024) (br : Row 1024) (Wn : Mat 3072 1024) (bn : Row 1024)
    (b : Fin R) (n : Fin 1024) : EReal :=
  (1 - Ideal.logistic (gatePre (activated x h pot Win bin tresh) (fun b k => h (ix2 b k)) Wz bz b n)) * h (ix2 b n)
    + Ideal.logistic (gatePre (activated x h pot Win bin tresh) (fun b k => h (ix2 b k)) Wz bz b n)
      * Ideal.tanh (gatePre (activated x h pot Win bin tresh)
          (fun b k => h (ix2 b k) * Ideal.logistic (gatePre (activated x h pot Win bin tresh) (fun b k => h (ix2 b k)) Wr br b k)) Wn bn b n)

/-! ## The two results as arrays -/

/-- The new potential as an array. -/
def potNextArr (x h : Mat R 1024) (pot : Mat R 2048) (Win : Mat 2048 2048) (bin tresh decay : Row 2048) : Mat R 2048 :=
  fun i => potNext x h pot Win bin tresh decay (i 0) (i 1)

/-- The new hidden state as an array. -/
def hNextArr (x h : Mat R 1024) (pot : Mat R 2048) (Win : Mat 2048 2048) (bin tresh : Row 2048)
    (Wz : Mat 3072 1024) (bz : Row 1024) (Wr : Mat 3072 1024) (br : Row 1024) (Wn : Mat 3072 1024) (bn : Row 1024) : Mat R 1024 :=
  fun i => hNext x h pot Win bin tresh Wz bz Wr br Wn bn (i 0) (i 1)

/-! ## A row of the result reads that row of the activations only -/

variable {R' : Nat}

theorem potTmp_congr {x h : Mat R 1024} {pot : Mat R 2048} {x' h' : Mat R' 1024} {pot' : Mat R' 2048} (Win : Mat 2048 2048) (bin : Row 2048)
    {b : Fin R} {b' : Fin R'} (hx : ∀ k, x' (ix2 b' k) = x (ix2 b k)) (hh : ∀ k, h' (ix2 b' k) = h (ix2 b k))
    (hp : ∀ j, pot' (ix2 b' j) = pot (ix2 b j)) (j : Fin 2048) :
    potTmp x' h' pot' Win bin b' j = potTmp x h pot Win bin b j := by
  unfold potTmp
  rw [hp j]
  simp only [hx, hh]

theorem activated_congr {x h : Mat R 1024} {pot : Mat R 2048} {x' h' : Mat R' 1024} {pot' : Mat R' 2048} (Win : Mat 2048 2048) (bin tresh : Row 2048)
    {b : Fin R} {b' : Fin R'} (hx : ∀ k, x' (ix2 b' k) = x (ix2 b k)) (hh : ∀ k, h' (ix2 b' k) = h (ix2 b k))
    (hp : ∀ j, pot' (ix2 b' j) = pot (ix2 b j)) (j : Fin 2048) :
    activated x' h' pot' Win bin tresh b' j = activated x h pot Win bin tresh b j := by
  unfold activated
  rw [potTmp_congr Win bin hx hh hp j]

theorem potNext_congr {x h : Mat R 1024} {pot : Mat R 2048} {x' h' : Mat R' 1024} {pot' : Mat R' 2048} (Win : Mat 2048 2048) (bin tresh decay : Row 2048)
    {b : Fin R} {b' : Fin R'} (hx : ∀ k, x' (ix2 b' k) = x (ix2 b k)) (hh : ∀ k, h' (ix2 b' k) = h (ix2 b k))
    (hp : ∀ j, pot' (ix2 b' j) = pot (ix2 b j)) (j : Fin 2048) :
    potNext x' h' pot' Win bin tresh decay b' j = potNext x h pot Win bin tresh decay b j := by
  unfold potNext
  rw [potTmp_congr Win bin hx hh hp j]

theorem gatePre_congr {A : Fin R → Fin 2048 → EReal} {u : Fin R → Fin 1024 → EReal} {A' : Fin R' → Fin 2048 → EReal} {u' : Fin R' → Fin 1024 → EReal}
    (W : Mat 3072 1024) (bias : Row 1024) {b : Fin R} {b' : Fin R'} (hA : ∀ k, A' b' k = A b k) (hu : ∀ k, u' b' k = u b k) (n : Fin 1024) :
    gatePre A' u' W bias b' n = gatePre A u W bias b n := by
  unfold gatePre
  simp only [hA, hu]

theorem hNext_congr {x h : Mat R 1024} {pot : Mat R 2048} {x' h' : Mat R' 1024} {pot' : Mat R' 2048} (Win : Mat 2048 2048) (bin tresh : Row 2048)
    (Wz : Mat 3072 1024) (bz : Row 1024) (Wr : Mat 3072 1024) (br : Row 1024) (Wn : Mat 3072 1024) (bn : Row 1024)
    {b : Fin R} {b' : Fin R'} (hx : ∀ k, x' (ix2 b' k) = x (ix2 b k)) (hh : ∀ k, h' (ix2 b' k) = h (ix2 b k))
    (hp : ∀ j, pot' (ix2 b' j) = pot (ix2 b j)) (n : Fin 1024) :
    hNext x' h' pot' Win bin tresh Wz bz Wr br Wn bn b' n = hNext x h pot Win bin tresh Wz bz Wr br Wn bn b n := by
  have hA : ∀ k, activated x' h' pot' Win bin tresh b' k = activated x h pot Win bin tresh b k :=
    fun k => activated_congr Win bin tresh hx hh hp k
  have hz : gatePre (activated x' h' pot' Win bin tresh) (fun b k => h' (ix2 b k)) Wz bz b' n
      = gatePre (activated x h pot Win bin tresh) (fun b k => h (ix2 b k)) Wz bz b n :=
    gatePre_congr Wz bz hA hh n
  have hr : ∀ k, gatePre (activated x' h' pot' Win bin tresh) (fun b k => h' (ix2 b k)) Wr br b' k
      = gatePre (activated x h pot Win bin tresh) (fun b k => h (ix2 b k)) Wr br b k :=
    fun k => gatePre_congr Wr br hA hh k
  have hn : gatePre (activated x' h' pot' Win bin tresh)
        (fun b k => h' (ix2 b k) * Ideal.logistic (gatePre (activated x' h' pot' Win bin tresh) (fun b k => h' (ix2 b k)) Wr br b k)) Wn bn b' n
      = gatePre (activated x h pot Win bin tresh)
        (fun b k => h (ix2 b k) * Ideal.logistic (gatePre (activated x h pot Win bin tresh) (fun b k => h (ix2 b k)) Wr br b k)) Wn bn b n :=
    gatePre_congr Wn bn hA (fun k => by rw [hh k, hr k]) n
  unfold hNext
  rw [hz, hn, hh n]

end Cert.GatedCell

end
-- ==== Proof.Finite.lean ====
/-
  Finiteness of three inputs, read out of the precondition.

  The precondition of the claim is one boolean: for each of the thirteen float arguments `a` it forms the array of
  comparisons `|a i| < +∞`, folds that array by `and` over all its axes into a single bit (the `all` of the array),
  and then joins the thirteen bits by `and`; the claim assumes the result is 1. On the extended reals `|x|` is
  `max x (-x)`, and `max x (-x) < ⊤` says exactly that `x` is neither `⊤` nor `⊥`, that is, a real number.

  This module proves, for the three arguments the algebra needs — the input activations `x` (4096 × 1024), the
  previous hidden state `h` (4096 × 1024) and the input layer's matrix `Win` (2048 × 2048) — that every entry is a
  real number. Three steps: an `and` of bits is 1 only if both bits are (which peels the chain of thirteen down to
  the three bits wanted, the other ten being dropped unread); a fold by `and` that is 1 met only 1s (so every single
  comparison holds); and the comparison at one entry, read on the extended reals.
-/
import proofs.«135316_j58360015618523_2_alg».proof.Defs
import proofs.«135316_j58360015618523_2_alg».proof.Proof.Gen.Pre_finite_inputs
import proofs.«135316_j58360015618523_2_alg».proof.Proof.Spec
import Idealize.ShloMosaic.Lib.ReduceAll
import Idealize.ShloMosaic.Lib.IdealHost
import Idealize.ShloMosaic.PureOps.Ideal.Laws

namespace Cert.GatedCell.Finite

open Idealize.ShloMosaic Idealize.ShloMosaic.ValueIdx Cert.GatedCell

/-- The shape of a scalar has exactly one index (the empty tuple of coordinates). -/
instance : Subsingleton Cert.Pre_finite_inputs.S_.Idx := ⟨fun a b => funext fun d => d.elim0⟩

/-- One entry: if the comparison `|x| < +∞` holds (its bit is 1), where `|x| = max x (-x)` and `+∞` is the
    float pattern `0x7F800000`, then `x` is neither `⊥` nor `⊤`. For `x < ⊤` gives `x ≠ ⊤`, and `-x < ⊤` gives
    `x ≠ ⊥` because `-⊥ = ⊤`. -/
theorem finite_of_abs_lt_top (x : EReal)
    (h : Ideal.cmp .olt (max x (-x)) (Ideal.ofBits .f32 0x7F800000#32) = 1#1) : x ≠ ⊥ ∧ x ≠ ⊤ := by
  have htop : Ideal.ofBits .f32 0x7F800000#32 = ⊤ := by simp [Ideal.ofBits, Ideal.ieee]
  rw [htop] at h
  -- the bit of a comparison that fails is 0, so the comparison holds
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  obtain ⟨h1, h2⟩ := max_lt_iff.1 hlt
  refine ⟨?_, ne_of_lt h1⟩
  intro hx
  rw [hx, EReal.neg_bot] at h2
  exact lt_irrefl _ h2

/-- One argument, in the form the precondition states it: if the `and` over all axes of the array of comparisons
    `|a i| < +∞` (the bound being the scalar `+∞` laid over the whole shape) is 1, then every entry of `a` is a real
    number. The fold is never evaluated: a fold by `and` that came out 1 had a 1 at every index. -/
theorem finite_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (h : Host.reduce IntOp.andi
        (cmpf .olt (Host.absf a)
          (broadcastInDim S ![] hb (constant (F := Ideal) Cert.Pre_finite_inputs.S_ .f32 0x7F800000#32)))
        (constantI Cert.Pre_finite_inputs.S_ 1 1#1) hr hu ix0 = 1#1) (i : S.Idx) :
    a i ≠ ⊥ ∧ a i ≠ ⊤ := by
  have e := Host.reduce_andi_all _ _ hr hu ix0 h i
  rw [cmpf_apply, broadcastInDim_scalar_apply, constant_apply] at e
  exact finite_of_abs_lt_top (a i) e

/-! ## The three arguments, typed as matrices of extended reals

An argument array's entry has the buffer's own element type, which is the extended reals only after unfolding; these
three names fix the type once, so that `⊥`, `⊤` and the order are the extended reals' own. Each is the array itself. -/

/-- The input activations `x` on device `c` (argument 0), as a 4096 × 1024 matrix of extended reals. -/
abbrev argX (m : (ℓ : Loc Cert.KernelIdeal.nD Cert.KernelIdeal.τ Cert.KernelIdeal.sig) → Buf (Elt Ideal) ℓ) (c : Dev Cert.KernelIdeal.nD) : Mat 4096 1024 :=
  m ((c.tc : Thread Cert.KernelIdeal.nD Cert.KernelIdeal.τ).loc Cert.KernelIdeal.main_arg0)

/-- The previous hidden state `h` on device `c` (argument 1), as a 4096 × 1024 matrix of extended reals. -/
abbrev argH (m : (ℓ : Loc Cert.KernelIdeal.nD Cert.KernelIdeal.τ Cert.KernelIdeal.sig) → Buf (Elt Ideal) ℓ) (c : Dev Cert.KernelIdeal.nD) : Mat 4096 1024 :=
  m ((c.tc : Thread Cert.KernelIdeal.nD Cert.KernelIdeal.τ).loc Cert.KernelIdeal.main_arg1)

/-- The input layer's matrix `Win` on device `c` (argument 3), as a 2048 × 2048 matrix of extended reals. -/
abbrev argW (m : (ℓ : Loc Cert.KernelIdeal.nD Cert.KernelIdeal.τ Cert.KernelIdeal.sig) → Buf (Elt Ideal) ℓ) (c : Dev Cert.KernelIdeal.nD) : Mat 2048 2048 :=
  m ((c.tc : Thread Cert.KernelIdeal.nD Cert.KernelIdeal.τ).loc Cert.KernelIdeal.main_arg3)

/-- Under the precondition, on every device, every entry of the input activations (argument 0), of the previous
    hidden state (argument 1) and of the input layer's matrix (argument 3) is a real number. The precondition's
    thirteen bits are joined as `((…((b₀ ∧ b₁) ∧ b₂) ∧ b₃) ∧ …) ∧ b₁₂`: nine steps drop `b₁₂ … b₄`, the tenth keeps
    `b₃`, the eleventh drops `b₂`, the twelfth splits `b₀ ∧ b₁`. -/
theorem finite_args [hP : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, argX m c i ≠ ⊥ ∧ argX m c i ≠ ⊤)
    ∧ (∀ i, argH m c i ≠ ⊥ ∧ argH m c i ≠ ⊤)
    ∧ (∀ i, argW m c i ≠ ⊥ ∧ argW m c i ≠ ⊤) := by
  have h := congrFun (hpre c) ix0
  dsimp only [Cert.Pre_finite_inputs.fn, Cert.Pre_finite_inputs.fn_part1, Cert.Pre_finite_inputs.fn_part2,
    Cert.Pre_finite_inputs.fn_part3, andi] at h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, h3⟩ := IntOp.andi_eq_one.1 h
  obtain ⟨h, -⟩ := IntOp.andi_eq_one.1 h
  obtain ⟨h0, h1⟩ := IntOp.andi_eq_one.1 h
  exact ⟨fun i => finite_of_all _ _ _ _ h0 i, fun i => finite_of_all _ _ _ _ h1 i, fun i => finite_of_all _ _ _ _ h3 i⟩

end Cert.GatedCell.Finite
-- ==== Proof.RefSide.lean ====
/-
  The reference program computes the gated recurrent cell of the specification.

  Read at the extended reals, where every operation is the exact one, the reference's two results — the new potential
  and the new hidden state, each an array of 4096 rows — are the specification's arrays `potNextArr` and `hNextArr`
  (`ref_potNext`, `ref_hNext`). The proof goes entry by entry, at row `b` and column `j` (or `n`), and follows the
  reference's operations in their order:

  * the input layer. The reference stacks the activations side by side, `[x | h]` (4096 × 2048), and multiplies by `Win`:
    entry `(b, j)` is the sum over the 2048 rows `k` of `Win` of `[x | h] b k * Win k j`. The stacked array's column `k` is
    column `k` of `x` for `k < 1024` and column `k - 1024` of `h` otherwise, and a sum over `Fin 2048` is the sum over its first
    1024 indices plus the sum over its last 1024 (`sum_fin_2048`): these are the specification's two sums over `inX` and
    `inH`. With the bias and the old potential added in the specification's own grouping this is `potTmp` (`ref_potTmp`);
  * the threshold. The reference writes the spike as the truth value of `max (p - t) 0 > 0`, converted to a number. On the
    extended reals `0 < max (p - t) 0` holds exactly when `t < p` (`pos_relu_sub_iff`: `0 < p - t ↔ t < p` holds at the
    infinities too), so that number is `1` where `t < p` and `0` elsewhere: the specification's `spike` (`spike_scalar`,
    `ref_spike`). The products `s * p` and `p * (1 - s) * decay` are then written in the specification's order
    (`ref_activated`, `ref_potNext_at`);
  * the gates. Each gate multiplies a stacked pair `[A | u]` (4096 × 3072: the activated potentials, then a state-side
    input) by its matrix, a sum over `Fin 3072` that splits into the sum over the first 2048 indices and the sum over the
    last 1024 (`sum_fin_3072`, `gate_of_cat`): the specification's `gatePre`. The state-side input is the hidden state for
    the update and reset gates, and the hidden state times the reset gate for the candidate;
  * the nonlinearities. The reference spells the logistic function `1 / (1 + exp (-y))`, which is its definition on the
    extended reals (`logistic_scalar`), and the hyperbolic tangent is the same function on both sides;
  * the new hidden state `(1 - z) * h + z * n`, written in the specification's order (`ref_hNext_at`).

  No step uses distributivity or cancellation, so nothing here asks the inputs to be finite. The single-precision words
  `0x00000000` and `0x3F800000` are read as the numbers zero and one (`one_f32`).
-/
import proofs.«135316_j58360015618523_2_alg».proof.Proof.Gen.ReferenceIdeal.Read
import proofs.«135316_j58360015618523_2_alg».proof.Proof.Spec

noncomputable section

open scoped BigOperators

namespace Cert.GatedCell.Ref

open Cert.GatedCell Idealize.ShloMosaic Idealize.ShloMosaic.ValueIdx
open Cert.ReferenceIdeal Cert.ReferenceIdeal.Read

/-! ## Sums over a stacked axis -/

/-- A sum over the `2048` rows of the input layer's matrix is the sum over its upper half plus the sum over its lower half. -/
theorem sum_fin_2048 (f : Fin 2048 → EReal) :
    ∑ k : Fin 2048, f k = (∑ k : Fin 1024, f (inX k)) + ∑ k : Fin 1024, f (inH k) :=
  Fin.sum_univ_add (a := 1024) (b := 1024) f

/-- A sum over the `3072` rows of a gate's matrix is the sum over its upper two thirds plus the sum over its lower third. -/
theorem sum_fin_3072 (f : Fin 3072 → EReal) :
    ∑ k : Fin 3072, f k = (∑ k : Fin 2048, f (gateA k)) + ∑ k : Fin 1024, f (gateH k) :=
  Fin.sum_univ_add (a := 2048) (b := 1024) f

/-! ## The input layer -/

/-- Column `k < 1024` of the stacked activations `[x | h]` is column `k` of `x`. -/
theorem v0_left (x0 x1 : (⟨S4096x1024, .f32⟩ : BufTy).Contents (Elt Ideal)) (b : Fin 4096) (k : Fin 1024) :
    val_main_v0 (F := Ideal) x0 x1 (ix2 b (inX k)) = x0 (ix2 b k) := by
  unfold val_main_v0
  exact concatenate_pair_apply_left 1 x0 x1 _ (ix2 b (inX k)) rfl (ix2 b k)
    (fun a => match a with | ⟨0, _⟩ => rfl | ⟨1, _⟩ => rfl)

/-- Column `1024 + k` of the stacked activations `[x | h]` is column `k` of `h`. -/
theorem v0_right (x0 x1 : (⟨S4096x1024, .f32⟩ : BufTy).Contents (Elt Ideal)) (b : Fin 4096) (k : Fin 1024) :
    val_main_v0 (F := Ideal) x0 x1 (ix2 b (inH k)) = x1 (ix2 b k) := by
  unfold val_main_v0
  exact concatenate_pair_apply_right 1 x0 x1 _ (ix2 b (inH k)) rfl rfl (ix2 b k)
    (fun a => match a with | ⟨0, _⟩ => fun _ => rfl | ⟨1, _⟩ => fun h => absurd rfl h)
    (by show k.val + 1024 = 1024 + k.val; omega)

/-- The input layer's bias, broadcast along the rows, read at an entry. -/
theorem bias_in (x4 : (⟨S2048, .f32⟩ : BufTy).Contents (Elt Ideal)) (b : Fin 4096) (j : Fin 2048) :
    val_main_v3 (F := Ideal) x4 (ix2 b j) = x4 (ix1 j) := by
  rw [val_main_v3_apply, val_main_v2_apply]
  exact congrArg x4 (funext fun a => match a with | ⟨0, _⟩ => rfl)

/-- The input layer's product `[x | h] · Win` at an entry: the part that meets `x` plus the part that meets `h`. -/
theorem dot_in (x0 x1 : (⟨S4096x1024, .f32⟩ : BufTy).Contents (Elt Ideal)) (x3 : (⟨S2048x2048, .f32⟩ : BufTy).Contents (Elt Ideal)) (b : Fin 4096) (j : Fin 2048) :
    val_main_v1 (F := Ideal) x0 x1 x3 (ix2 b j)
      = (∑ k : Fin 1024, x0 (ix2 b k) * x3 (ix2 (inX k) j)) + ∑ k : Fin 1024, x1 (ix2 b k) * x3 (ix2 (inH k) j) := by
  rw [val_main_v1_apply, sum_fin_2048]
  refine congrArg₂ (· + ·) (Finset.sum_congr rfl fun k _ => ?_) (Finset.sum_congr rfl fun k _ => ?_)
  · refine congrArg₂ (· * ·) ((congrArg (val_main_v0 (F := Ideal) x0 x1) ?_).trans (v0_left x0 x1 b k)) (congrArg x3 ?_)
    · exact funext fun a => match a with | ⟨0, _⟩ => rfl | ⟨1, _⟩ => rfl
    · exact funext fun a => match a with | ⟨0, _⟩ => rfl | ⟨1, _⟩ => rfl
  · refine congrArg₂ (· * ·) ((congrArg (val_main_v0 (F := Ideal) x0 x1) ?_).trans (v0_right x0 x1 b k)) (congrArg x3 ?_)
    · exact funext fun a => match a with | ⟨0, _⟩ => rfl | ⟨1, _⟩ => rfl
    · exact funext fun a => match a with | ⟨0, _⟩ => rfl | ⟨1, _⟩ => rfl

/-- The reference's potential before the threshold is the specification's, entry by entry. -/
theorem ref_potTmp (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 : (⟨S2048, .f32⟩ : BufTy).Contents (Elt Ideal)) (b : Fin 4096) (j : Fin 2048) :
    val_main_v5 (F := Ideal) x0 x1 x2 x3 x4 (ix2 b j) = potTmp x0 x1 x2 x3 x4 b j := by
  rw [val_main_v5_apply, val_main_v4_apply, dot_in, bias_in]
  rfl

/-! ## The threshold -/

/-- The single-precision word `0x3F800000` is the number one. -/
theorem one_f32 : Ideal.ofBits .f32 0x3F800000#32 = 1 := by
  simp [Ideal.ofBits, Ideal.ieee, -EReal.coe_mul]; norm_num

/-- On the extended reals the positive part of `p - t` is positive exactly when `t < p`. -/
theorem pos_relu_sub_iff (p t : EReal) : (0 : EReal) < max (p - t) 0 ↔ t < p := by
  rw [lt_max_iff, EReal.sub_pos]
  exact ⟨fun h => h.resolve_right (lt_irrefl 0), Or.inl⟩

/-- The reference's spelling of the spike — the truth value of `max (p - t) 0 > 0` read as a number — is the spike. -/
theorem spike_scalar (p t : EReal) :
    FloatOps.uitofp (F := Ideal) .f32
      (FloatOps.cmpf (F := Ideal) (φ := .f32) .ogt
        (FloatOps.maximumf (F := Ideal) (φ := .f32) (FloatOps.subf (F := Ideal) (φ := .f32) p t)
          (FloatOps.ofBits (F := Ideal) .f32 0x00000000#32))
        (FloatOps.ofBits (F := Ideal) .f32 0x00000000#32)) = spike p t := by
  have hz : FloatOps.ofBits (F := Ideal) .f32 0x00000000#32 = (0 : EReal) := Ideal.ofBits_zero_f32
  rw [hz]
  show (((BitVec.ofBool (decide ((0 : EReal) < max (p - t) 0))).toNat : ℝ) : EReal) = if t < p then 1 else 0
  by_cases hp : t < p
  · rw [if_pos hp, decide_eq_true ((pos_relu_sub_iff p t).mpr hp)]
    simp
  · rw [if_neg hp, decide_eq_false (mt (pos_relu_sub_iff p t).mp hp)]
    simp

/-- The threshold, broadcast along the rows, read at an entry. -/
theorem thresh_in (x5 : (⟨S2048, .f32⟩ : BufTy).Contents (Elt Ideal)) (b : Fin 4096) (j : Fin 2048) :
    val_main_v7 (F := Ideal) x5 (ix2 b j) = x5 (ix1 j) := by
  rw [val_main_v7_apply, val_main_v6_apply]
  exact congrArg x5 (funext fun a => match a with | ⟨0, _⟩ => rfl)

/-- The decay, broadcast along the rows, read at an entry. -/
theorem decay_in (x6 : (⟨S2048, .f32⟩ : BufTy).Contents (Elt Ideal)) (b : Fin 4096) (j : Fin 2048) :
    val_main_v18 (F := Ideal) x6 (ix2 b j) = x6 (ix1 j) := by
  rw [val_main_v18_apply, val_main_v17_apply]
  exact congrArg x6 (funext fun a => match a with | ⟨0, _⟩ => rfl)

/-- The reference's spike is the specification's, entry by entry. -/
theorem ref_spike (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (b : Fin 4096) (j : Fin 2048) :
    val_main_v12 (F := Ideal) x0 x1 x2 x3 x4 x5 (ix2 b j) = spike (potTmp x0 x1 x2 x3 x4 b j) (x5 (ix1 j)) := by
  rw [val_main_v12_apply, val_main_v11_apply, val_main_v9_apply, val_main_v8_apply, val_main_v10_apply, val_main_cst_apply,
    val_main_call0_v0_apply, val_main_call0_cst_apply, thresh_in, ref_potTmp]
  exact spike_scalar _ _

/-- What a unit passes on: the reference's value is the specification's, entry by entry. -/
theorem ref_activated (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (b : Fin 4096) (j : Fin 2048) :
    val_main_v13 (F := Ideal) x0 x1 x2 x3 x4 x5 (ix2 b j) = activated x0 x1 x2 x3 x4 x5 b j := by
  rw [val_main_v13_apply, ref_spike, ref_potTmp]
  rfl

/-- The potential a unit keeps: the reference's value is the specification's, entry by entry. -/
theorem ref_potNext_at (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 x6 : (⟨S2048, .f32⟩ : BufTy).Contents (Elt Ideal)) (b : Fin 4096) (j : Fin 2048) :
    val_main_v19 (F := Ideal) x0 x1 x2 x3 x4 x5 x6 (ix2 b j) = potNext x0 x1 x2 x3 x4 x5 x6 b j := by
  have h1 : FloatOps.ofBits (F := Ideal) .f32 0x3F800000#32 = (1 : EReal) := one_f32
  rw [val_main_v19_apply, val_main_v16_apply, val_main_v15_apply, val_main_v14_apply, val_main_cst_0_apply, decay_in,
    ref_spike, ref_potTmp, h1]
  rfl

/-- The reference's new potential is the specification's array. -/
theorem ref_potNext (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 x6 : (⟨S2048, .f32⟩ : BufTy).Contents (Elt Ideal)) :
    val_main_v19 (F := Ideal) x0 x1 x2 x3 x4 x5 x6 = potNextArr (R := 4096) x0 x1 x2 x3 x4 x5 x6 := by
  funext i
  obtain ⟨b, j, rfl⟩ : ∃ (b : Fin 4096) (j : Fin 2048), i = ix2 b j := ⟨i 0, i 1, eq_ix2 i⟩
  exact ref_potNext_at x0 x1 x2 x3 x4 x5 x6 b j

/-! ## The gates -/

/-- Column `k < 2048` of a stacked pair `[A | u]` is column `k` of `A`. -/
theorem cat_gate_left (A : (⟨S4096x2048, .f32⟩ : BufTy).Contents (Elt Ideal)) (u : (⟨S4096x1024, .f32⟩ : BufTy).Contents (Elt Ideal))
    (h : Shape.Concatenates [S4096x2048, S4096x1024] S4096x3072 1) (b : Fin 4096) (k : Fin 2048) :
    concatenate S4096x3072 1 [⟨S4096x2048, A⟩, ⟨S4096x1024, u⟩] h (ix2 b (gateA k)) = A (ix2 b k) :=
  concatenate_pair_apply_left 1 A u h (ix2 b (gateA k)) rfl (ix2 b k)
    (fun a => match a with | ⟨0, _⟩ => rfl | ⟨1, _⟩ => rfl)

/-- Column `2048 + k` of a stacked pair `[A | u]` is column `k` of `u`. -/
theorem cat_gate_right (A : (⟨S4096x2048, .f32⟩ : BufTy).Contents (Elt Ideal)) (u : (⟨S4096x1024, .f32⟩ : BufTy).Contents (Elt Ideal))
    (h : Shape.Concatenates [S4096x2048, S4096x1024] S4096x3072 1) (b : Fin 4096) (k : Fin 1024) :
    concatenate S4096x3072 1 [⟨S4096x2048, A⟩, ⟨S4096x1024, u⟩] h (ix2 b (gateH k)) = u (ix2 b k) :=
  concatenate_pair_apply_right 1 A u h (ix2 b (gateH k)) rfl rfl (ix2 b k)
    (fun a => match a with | ⟨0, _⟩ => fun _ => rfl | ⟨1, _⟩ => fun h => absurd rfl h)
    (by show k.val + 2048 = 2048 + k.val; omega)

/-- A gate before its nonlinearity. If row `b` of a `4096 × 3072` array `C` is the activated potentials `A b` followed by the
    state-side input `u b`, then the product `C · W` at `(b, n)`, written as a sum over the `3072` rows of `W`, plus the
    bias is the specification's gate. -/
theorem gate_of_cat (C : (⟨S4096x3072, .f32⟩ : BufTy).Contents (Elt Ideal)) (W : (⟨S3072x1024, .f32⟩ : BufTy).Contents (Elt Ideal)) (bias : (⟨S1024, .f32⟩ : BufTy).Contents (Elt Ideal))
    (l : S4096x1024.Idx → Fin 3072 → S4096x3072.Idx) (r : S4096x1024.Idx → Fin 3072 → S3072x1024.Idx)
    (A : Fin 4096 → Fin 2048 → EReal) (u : Fin 4096 → Fin 1024 → EReal) (b : Fin 4096) (n : Fin 1024)
    (hl : ∀ k, l (ix2 b n) k = ix2 b k) (hr : ∀ k, r (ix2 b n) k = ix2 k n)
    (hA : ∀ k, C (ix2 b (gateA k)) = A b k) (hu : ∀ k, C (ix2 b (gateH k)) = u b k) :
    (∑ k : Fin 3072, C (l (ix2 b n) k) * W (r (ix2 b n) k)) + bias (ix1 n) = gatePre A u W bias b n := by
  unfold gatePre
  rw [sum_fin_3072]
  simp only [hl, hr, hA, hu]

/-- The update gate's bias, broadcast along the rows, read at an entry. -/
theorem bias_z (x8 : (⟨S1024, .f32⟩ : BufTy).Contents (Elt Ideal)) (b : Fin 4096) (n : Fin 1024) :
    val_main_v23 (F := Ideal) x8 (ix2 b n) = x8 (ix1 n) := by
  rw [val_main_v23_apply, val_main_v22_apply]
  exact congrArg x8 (funext fun a => match a with | ⟨0, _⟩ => rfl)

/-- The reset gate's bias, broadcast along the rows, read at an entry. -/
theorem bias_r (x10 : (⟨S1024, .f32⟩ : BufTy).Contents (Elt Ideal)) (b : Fin 4096) (n : Fin 1024) :
    val_main_v33 (F := Ideal) x10 (ix2 b n) = x10 (ix1 n) := by
  rw [val_main_v33_apply, val_main_v32_apply]
  exact congrArg x10 (funext fun a => match a with | ⟨0, _⟩ => rfl)

/-- The candidate's bias, broadcast along the rows, read at an entry. -/
theorem bias_n (x12 : (⟨S1024, .f32⟩ : BufTy).Contents (Elt Ideal)) (b : Fin 4096) (n : Fin 1024) :
    val_main_v45 (F := Ideal) x12 (ix2 b n) = x12 (ix1 n) := by
  rw [val_main_v45_apply, val_main_v44_apply]
  exact congrArg x12 (funext fun a => match a with | ⟨0, _⟩ => rfl)

/-- The stacked pair the update and reset gates read: the activated potentials, then the hidden state. -/
theorem v20_left (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (b : Fin 4096) (k : Fin 2048) :
    val_main_v20 (F := Ideal) x0 x1 x2 x3 x4 x5 (ix2 b (gateA k)) = activated x0 x1 x2 x3 x4 x5 b k := by
  unfold val_main_v20
  exact (cat_gate_left _ x1 _ b k).trans (ref_activated x0 x1 x2 x3 x4 x5 b k)

/-- The same stacked pair past column 2048: the hidden state. -/
theorem v20_right (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (b : Fin 4096) (k : Fin 1024) :
    val_main_v20 (F := Ideal) x0 x1 x2 x3 x4 x5 (ix2 b (gateH k)) = x1 (ix2 b k) := by
  unfold val_main_v20
  exact cat_gate_right _ x1 _ b k

/-- The update gate before the logistic function. -/
theorem ref_gate_z (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x7 : (⟨S3072x1024, .f32⟩ : BufTy).Contents (Elt Ideal)) (x8 : (⟨S1024, .f32⟩ : BufTy).Contents (Elt Ideal)) (b : Fin 4096) (n : Fin 1024) :
    val_main_v24 (F := Ideal) x0 x1 x2 x3 x4 x5 x7 x8 (ix2 b n)
      = gatePre (activated x0 x1 x2 x3 x4 x5) (fun b k => x1 (ix2 b k)) x7 x8 b n := by
  rw [val_main_v24_apply, val_main_v21_apply, bias_z]
  exact gate_of_cat (val_main_v20 (F := Ideal) x0 x1 x2 x3 x4 x5) x7 x8 lidx_main_v21 ridx_main_v21
    (activated x0 x1 x2 x3 x4 x5) (fun b k => x1 (ix2 b k)) b n
    (fun k => funext fun a => match a with | ⟨0, _⟩ => rfl | ⟨1, _⟩ => rfl)
    (fun k => funext fun a => match a with | ⟨0, _⟩ => rfl | ⟨1, _⟩ => rfl)
    (fun k => v20_left x0 x1 x2 x3 x4 x5 b k) (fun k => v20_right x0 x1 x2 x3 x4 x5 b k)

/-- The reset gate before the logistic function. -/
theorem ref_gate_r (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x9 : (⟨S3072x1024, .f32⟩ : BufTy).Contents (Elt Ideal)) (x10 : (⟨S1024, .f32⟩ : BufTy).Contents (Elt Ideal)) (b : Fin 4096) (n : Fin 1024) :
    val_main_v34 (F := Ideal) x0 x1 x2 x3 x4 x5 x9 x10 (ix2 b n)
      = gatePre (activated x0 x1 x2 x3 x4 x5) (fun b k => x1 (ix2 b k)) x9 x10 b n := by
  rw [val_main_v34_apply, val_main_v31_apply, bias_r]
  exact gate_of_cat (val_main_v20 (F := Ideal) x0 x1 x2 x3 x4 x5) x9 x10 lidx_main_v31 ridx_main_v31
    (activated x0 x1 x2 x3 x4 x5) (fun b k => x1 (ix2 b k)) b n
    (fun k => funext fun a => match a with | ⟨0, _⟩ => rfl | ⟨1, _⟩ => rfl)
    (fun k => funext fun a => match a with | ⟨0, _⟩ => rfl | ⟨1, _⟩ => rfl)
    (fun k => v20_left x0 x1 x2 x3 x4 x5 b k) (fun k => v20_right x0 x1 x2 x3 x4 x5 b k)

/-- The reference spells the logistic function `1 / (1 + exp (-y))`: that is its definition. -/
theorem logistic_scalar (y : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) y)))
      = Ideal.logistic y := by
  have h1 : FloatOps.ofBits (F := Ideal) .f32 0x3F800000#32 = (1 : EReal) := one_f32
  rw [h1]
  rfl

/-- The update gate. -/
theorem ref_z (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x7 : (⟨S3072x1024, .f32⟩ : BufTy).Contents (Elt Ideal)) (x8 : (⟨S1024, .f32⟩ : BufTy).Contents (Elt Ideal)) (b : Fin 4096) (n : Fin 1024) :
    val_main_v30 (F := Ideal) x0 x1 x2 x3 x4 x5 x7 x8 (ix2 b n)
      = Ideal.logistic (gatePre (activated x0 x1 x2 x3 x4 x5) (fun b k => x1 (ix2 b k)) x7 x8 b n) := by
  rw [val_main_v30_apply, val_main_v29_apply, val_main_cst_2_apply, val_main_v28_apply, val_main_v27_apply,
    val_main_cst_1_apply, val_main_v26_apply, val_main_v25_apply, ref_gate_z]
  exact logistic_scalar _

/-- The reset gate. -/
theorem ref_r (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x9 : (⟨S3072x1024, .f32⟩ : BufTy).Contents (Elt Ideal)) (x10 : (⟨S1024, .f32⟩ : BufTy).Contents (Elt Ideal)) (b : Fin 4096) (n : Fin 1024) :
    val_main_v40 (F := Ideal) x0 x1 x2 x3 x4 x5 x9 x10 (ix2 b n)
      = Ideal.logistic (gatePre (activated x0 x1 x2 x3 x4 x5) (fun b k => x1 (ix2 b k)) x9 x10 b n) := by
  rw [val_main_v40_apply, val_main_v39_apply, val_main_cst_4_apply, val_main_v38_apply, val_main_v37_apply,
    val_main_cst_3_apply, val_main_v36_apply, val_main_v35_apply, ref_gate_r]
  exact logistic_scalar _

/-- The stacked pair the candidate reads: the activated potentials, then the hidden state scaled by the reset gate. -/
theorem v42_left (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x9 : (⟨S3072x1024, .f32⟩ : BufTy).Contents (Elt Ideal)) (x10 : (⟨S1024, .f32⟩ : BufTy).Contents (Elt Ideal)) (b : Fin 4096) (k : Fin 2048) :
    val_main_v42 (F := Ideal) x0 x1 x2 x3 x4 x5 x9 x10 (ix2 b (gateA k)) = activated x0 x1 x2 x3 x4 x5 b k := by
  unfold val_main_v42
  exact (cat_gate_left _ _ _ b k).trans (ref_activated x0 x1 x2 x3 x4 x5 b k)

/-- The same stacked pair past column 2048: the hidden state times the reset gate. -/
theorem v42_right (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x9 : (⟨S3072x1024, .f32⟩ : BufTy).Contents (Elt Ideal)) (x10 : (⟨S1024, .f32⟩ : BufTy).Contents (Elt Ideal)) (b : Fin 4096) (k : Fin 1024) :
    val_main_v42 (F := Ideal) x0 x1 x2 x3 x4 x5 x9 x10 (ix2 b (gateH k))
      = x1 (ix2 b k) * Ideal.logistic (gatePre (activated x0 x1 x2 x3 x4 x5) (fun b k => x1 (ix2 b k)) x9 x10 b k) := by
  unfold val_main_v42
  refine (cat_gate_right _ _ _ b k).trans ?_
  rw [val_main_v41_apply, ref_r]
  rfl

/-- The candidate before the hyperbolic tangent. -/
theorem ref_gate_n (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x9 : (⟨S3072x1024, .f32⟩ : BufTy).Contents (Elt Ideal)) (x10 : (⟨S1024, .f32⟩ : BufTy).Contents (Elt Ideal)) (x11 : (⟨S3072x1024, .f32⟩ : BufTy).Contents (Elt Ideal)) (x12 : (⟨S1024, .f32⟩ : BufTy).Contents (Elt Ideal)) (b : Fin 4096) (n : Fin 1024) :
    val_main_v46 (F := Ideal) x0 x1 x2 x3 x4 x5 x9 x10 x11 x12 (ix2 b n)
      = gatePre (activated x0 x1 x2 x3 x4 x5) (fun b k => x1 (ix2 b k) * Ideal.logistic (gatePre (activated x0 x1 x2 x3 x4 x5) (fun b k => x1 (ix2 b k)) x9 x10 b k)) x11 x12 b n := by
  rw [val_main_v46_apply, val_main_v43_apply, bias_n]
  exact gate_of_cat (val_main_v42 (F := Ideal) x0 x1 x2 x3 x4 x5 x9 x10) x11 x12 lidx_main_v43 ridx_main_v43
    (activated x0 x1 x2 x3 x4 x5) (fun b k => x1 (ix2 b k) * Ideal.logistic (gatePre (activated x0 x1 x2 x3 x4 x5) (fun b k => x1 (ix2 b k)) x9 x10 b k)) b n
    (fun k => funext fun a => match a with | ⟨0, _⟩ => rfl | ⟨1, _⟩ => rfl)
    (fun k => funext fun a => match a with | ⟨0, _⟩ => rfl | ⟨1, _⟩ => rfl)
    (fun k => v42_left x0 x1 x2 x3 x4 x5 x9 x10 b k) (fun k => v42_right x0 x1 x2 x3 x4 x5 x9 x10 b k)

/-! ## The new hidden state -/

/-- The reference's new hidden state is the specification's, entry by entry. -/
theorem ref_hNext_at (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x7 : (⟨S3072x1024, .f32⟩ : BufTy).Contents (Elt Ideal)) (x8 : (⟨S1024, .f32⟩ : BufTy).Contents (Elt Ideal)) (x9 : (⟨S3072x1024, .f32⟩ : BufTy).Contents (Elt Ideal)) (x10 : (⟨S1024, .f32⟩ : BufTy).Contents (Elt Ideal)) (x11 : (⟨S3072x1024, .f32⟩ : BufTy).Contents (Elt Ideal)) (x12 : (⟨S1024, .f32⟩ : BufTy).Contents (Elt Ideal)) (b : Fin 4096) (n : Fin 1024) :
    val_main_v52 (F := Ideal) x0 x1 x2 x3 x4 x5 x7 x8 x9 x10 x11 x12 (ix2 b n)
      = hNext x0 x1 x2 x3 x4 x5 x7 x8 x9 x10 x11 x12 b n := by
  have h1 : FloatOps.ofBits (F := Ideal) .f32 0x3F800000#32 = (1 : EReal) := one_f32
  rw [val_main_v52_apply, val_main_v50_apply, val_main_v49_apply, val_main_v48_apply, val_main_cst_5_apply,
    val_main_v51_apply, val_main_v47_apply, ref_z, ref_gate_n, h1]
  rfl

/-- The reference's new hidden state is the specification's array. -/
theorem ref_hNext (x0 x1 : (⟨S4096x1024, .f32⟩ : BufTy).Contents (Elt Ideal)) (x2 : (⟨S4096x2048, .f32⟩ : BufTy).Contents (Elt Ideal)) (x3 : (⟨S2048x2048, .f32⟩ : BufTy).Contents (Elt Ideal)) (x4 x5 : (⟨S2048, .f32⟩ : BufTy).Contents (Elt Ideal)) (x7 : (⟨S3072x1024, .f32⟩ : BufTy).Contents (Elt Ideal)) (x8 : (⟨S1024, .f32⟩ : BufTy).Contents (Elt Ideal)) (x9 : (⟨S3072x1024, .f32⟩ : BufTy).Contents (Elt Ideal)) (x10 : (⟨S1024, .f32⟩ : BufTy).Contents (Elt Ideal)) (x11 : (⟨S3072x1024, .f32⟩ : BufTy).Contents (Elt Ideal)) (x12 : (⟨S1024, .f32⟩ : BufTy).Contents (Elt Ideal)) :
    val_main_v52 (F := Ideal) x0 x1 x2 x3 x4 x5 x7 x8 x9 x10 x11 x12
      = hNextArr (R := 4096) x0 x1 x2 x3 x4 x5 x7 x8 x9 x10 x11 x12 := by
  funext i
  obtain ⟨b, n, rfl⟩ : ∃ (b : Fin 4096) (n : Fin 1024), i = ix2 b n := ⟨i 0, i 1, eq_ix2 i⟩
  exact ref_hNext_at x0 x1 x2 x3 x4 x5 x7 x8 x9 x10 x11 x12 b n

end Cert.GatedCell.Ref

end
-- ==== Proof.PotBlock.lean ====
/-
  The kernel's potential on one block of 128 rows.

  On a block, with `x`, `h` (128×1024) and `pot` (128×2048) the block's rows of the activations, the kernel splits each
  of `x` and `h` into a high part and a low part (the low part is the entry minus itself, since on the extended reals
  the narrowing to sixteen bits and the widening back are the identity), holds each half of the input matrix as a high
  and a low 1024×2048 matrix, and forms

    pot + ((((x · Whi + x · Wlo) + xlo · Whi) + ((h · Vhi + h · Vlo) + hlo · Vhi)) + bias)

  where each `u · W` is a product into a zero accumulator. This module proves

  * `matmul_1024_at`: such a product at entry (p, j) is the sum over k < 1024 of `u (p, k) * W (k, j)`;
  * `pay3_eq`: when `x` and `h` are finite (so `a - a = 0` entrywise), the low matrices are zero, the high matrices are
    the upper and lower 1024 rows of `Win` and the bias row is `bin`, the expression above at (p, j) is the
    specification's potential before the threshold, `potTmp`: four of the six sums are sums of zeros, and `a + 0 = a`;
  * `one_f32`, `spike_kernel`: the float literal is the number one, and the one-bit comparison "threshold below potential",
    widened to thirty-two bits and read as a signed integer, is the specification's spike;
  * `E17_eq`: the block the kernel writes for the new potential, `p * (1 - s) * decay` with `p` the potential above and
    `s` its spike against the threshold row, is the specification's `potNext` of the block's rows.
-/
import proofs.«135316_j58360015618523_2_alg».proof.Proof.KernelIdealValue
import proofs.«135316_j58360015618523_2_alg».proof.Proof.Spec
import Idealize.ShloMosaic.Lib.ValueIdx
import Idealize.ShloMosaic.Lib.Pipeline.Value
import Idealize.ShloMosaic.PureOps.Ideal.Laws

noncomputable section

open scoped BigOperators

namespace Cert.GatedCell.Block

open Cert.GatedCell Idealize.ShloMosaic Idealize.ShloMosaic.ValueIdx
open Cert.KernelIdeal Cert.KernelIdeal.Gen

/-! ## A product into a zero accumulator, entry by entry -/

/-- The left operand's row coordinate under the contraction is the output's row. -/
theorem pot_lhs_row (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide),
    dif_pos (show (0 : Fin S128x1024.rank) ∈ dot_S128x1024_S1024x2048_S128x2048_1_0_0_1_n_n.lhsNonContracting by decide)]
  rfl

/-- The left operand's column coordinate is the contraction index. -/
theorem pot_lhs_col (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q

/-- The right operand's row coordinate is the contraction index. -/
theorem pot_rhs_row (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q

/-- The right operand's column coordinate is the output's column. -/
theorem pot_rhs_col (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide),
    dif_pos (show (1 : Fin S1024x2048.rank) ∈ dot_S128x1024_S1024x2048_S128x2048_1_0_0_1_n_n.rhsNonContracting by decide)]
  rfl

/-- A 128×1024 by 1024×2048 product into a zero accumulator, read at entry (p, j), is the sum over the 1024 shared
    coordinates of the operands' products. -/
theorem matmul_1024_at (a : FVec Ideal S128x1024 .bf16) (w : FVec Ideal S1024x2048 .bf16) (p : Fin 128) (j : Fin 2048) :
    matmul dot_S128x1024_S1024x2048_S128x2048_1_0_0_1_n_n none a w (constant S128x2048 .f32 0x00000000#32) (ix2 p j)
      = ∑ k : Fin 1024, a (ix2 p k) * w (ix2 k j) := by
  refine (Ideal.matmul_constant_zero_apply dot_S128x1024_S1024x2048_S128x2048_1_0_0_1_n_n none a w (ix2 p j)).trans ?_
  rw [← Equiv.sum_comp (ValueIdx.contrEquiv1 dot_S128x1024_S1024x2048_S128x2048_1_0_0_1_n_n 1024 rfl rfl).symm]
  refine Finset.sum_congr rfl fun k _ => ?_
  have hk := ValueIdx.contrEquiv1_symm_val dot_S128x1024_S1024x2048_S128x2048_1_0_0_1_n_n 1024 rfl rfl k
  have el : dot_S128x1024_S1024x2048_S128x2048_1_0_0_1_n_n.lhsIdx (ix2 p j)
      ((ValueIdx.contrEquiv1 dot_S128x1024_S1024x2048_S128x2048_1_0_0_1_n_n 1024 rfl rfl).symm k) = ix2 p k :=
    funext fun a => Fin.ext (by
      match a with
      | ⟨0, _⟩ => exact pot_lhs_row _ _
      | ⟨1, _⟩ => exact (pot_lhs_col _ _).trans hk)
  have er : dot_S128x1024_S1024x2048_S128x2048_1_0_0_1_n_n.rhsIdx (ix2 p j)
      ((ValueIdx.contrEquiv1 dot_S128x1024_S1024x2048_S128x2048_1_0_0_1_n_n 1024 rfl rfl).symm k) = ix2 k j :=
    funext fun a => Fin.ext (by
      match a with
      | ⟨0, _⟩ => exact (pot_rhs_row _ _).trans hk
      | ⟨1, _⟩ => exact pot_rhs_col _ _)
  rw [el, er]

/-! ## The potential before the threshold -/

/-- A 1×2048 row broadcast down 128 rows, read at entry (p, j), is the row's entry j. -/
theorem row_bcast_2048_at {α : Type} (r : S1x2048.Idx → α) (p : Fin 128) (j : Fin 2048) :
    broadcastTo S128x2048 r broadcasts_S1x2048_S128x2048 (ix2 p j) = r (ix2 (0 : Fin 1) j) := by
  exact broadcastTo_apply r broadcasts_S1x2048_S128x2048 (ix2 p j) (ix2 (0 : Fin 1) j) (fun a => match a with
    | ⟨0, _⟩ => by show 0 = (if (1 : Nat) = 1 then 0 else p.val); rw [if_pos rfl]
    | ⟨1, _⟩ => by show j.val = (if (2048 : Nat) = 1 then 0 else j.val); rw [if_neg (by decide)])

/-- The potential before the threshold on one block of 128 rows: the six products of the hi/lo split collapse to the two of the specification once the lo parts vanish. -/
theorem pay3_eq (v0 v1 : Vec Ideal S128x1024 .f32) (v2 : Vec Ideal S128x2048 .f32) (v11 v13 v20 v22 : Vec Ideal S1024x2048 .bf16) (v30 : Vec Ideal S1x2048 .f32)
    (Win : Mat 2048 2048) (bin : Row 2048)
    (hx : ∀ i, v0 i ≠ ⊥ ∧ v0 i ≠ ⊤) (hh : ∀ i, v1 i ≠ ⊥ ∧ v1 i ≠ ⊤)
    (h11 : ∀ (k : Fin 1024) (j : Fin 2048), v11 (ix2 k j) = Win (ix2 (inX k) j))
    (h13 : ∀ (k : Fin 1024) (j : Fin 2048), v13 (ix2 k j) = 0)
    (h20 : ∀ (k : Fin 1024) (j : Fin 2048), v20 (ix2 k j) = Win (ix2 (inH k) j))
    (h22 : ∀ (k : Fin 1024) (j : Fin 2048), v22 (ix2 k j) = 0)
    (h30 : ∀ j : Fin 2048, v30 (ix2 (0 : Fin 1) j) = bin (ix1 j))
    (p : Fin 128) (j : Fin 2048) :
    k0_pay3 (F := Ideal) v0 v1 v2 v11 v13 v20 v22 v30 (ix2 p j) = potTmp (R := 128) v0 v1 v2 Win bin p j := by
  have e0 : ∀ k : Fin 1024, v0 (ix2 p k) - v0 (ix2 p k) = 0 := fun k => EReal.sub_self (hx _).2 (hx _).1
  have e1 : ∀ k : Fin 1024, v1 (ix2 p k) - v1 (ix2 p k) = 0 := fun k => EReal.sub_self (hh _).2 (hh _).1
  unfold k0_pay3 k0_pay2 potTmp
  simp only [addf_apply, matmul_1024_at, shapeCast_self, truncf_apply, subf_apply, row_bcast_2048_at, h11, h13, h20, h22, h30, e0, e1,
    mul_zero, zero_mul, Finset.sum_const_zero, add_zero]

/-! ## The threshold, and the potential a unit keeps -/

/-- The word `0x3F800000` read as a single-precision float is the number one. -/
theorem one_f32 : Scalar.ofBits (F := Ideal) .f32 0x3F800000#32 = (1 : EReal) := by
  show Ideal.ofBits .f32 0x3F800000#32 = 1
  simp [Ideal.ofBits, Ideal.ieee, -EReal.coe_mul]; norm_num

/-- The comparison "potential above threshold", widened from one bit to thirty-two and read as a signed integer, is the
    specification's spike: one where the threshold is below the potential, zero elsewhere. -/
theorem spike_kernel (pt tr : Ideal .f32) :
    FloatOps.sitofp (F := Ideal) .f32 ((FloatOps.cmpf .ogt pt tr).setWidth 32) = spike pt tr := by
  have hc : FloatOps.cmpf .ogt pt tr = BitVec.ofBool (decide (tr < pt)) := rfl
  rw [hc]
  unfold spike
  by_cases h : tr < pt
  · rw [if_pos h, decide_eq_true h]
    show (((BitVec.setWidth 32 (BitVec.ofBool true)).toInt : ℝ) : EReal) = 1
    have e : (BitVec.setWidth 32 (BitVec.ofBool true)).toInt = 1 := by decide
    rw [e, Int.cast_one, EReal.coe_one]
  · rw [if_neg h, decide_eq_false h]
    show (((BitVec.setWidth 32 (BitVec.ofBool false)).toInt : ℝ) : EReal) = 0
    have e : (BitVec.setWidth 32 (BitVec.ofBool false)).toInt = 0 := by decide
    rw [e, Int.cast_zero, EReal.coe_zero]

/-- Entry (p, j) of the block reads the potential at entry (p, j) (first occurrence). -/
theorem ix17_0_ix2 (p : Fin 128) (j : Fin 2048) : Cert.KernelIdeal.ValueP.ix17_0 (ix2 p j) = ix2 p j :=
  funext fun a => Fin.ext (by match a with | ⟨0, _⟩ => rfl | ⟨1, _⟩ => rfl)

/-- Entry (p, j) of the block reads the potential at entry (p, j) (second occurrence). -/
theorem ix17_1_ix2 (p : Fin 128) (j : Fin 2048) : Cert.KernelIdeal.ValueP.ix17_1 (ix2 p j) = ix2 p j :=
  funext fun a => Fin.ext (by match a with | ⟨0, _⟩ => rfl | ⟨1, _⟩ => rfl)

/-- Entry (p, j) of the block reads the threshold row at column j. -/
theorem ix17_2_ix2 (p : Fin 128) (j : Fin 2048) : Cert.KernelIdeal.ValueP.ix17_2 (ix2 p j) = ix2 (0 : Fin 1) j :=
  funext fun a => Fin.ext (by match a with | ⟨0, _⟩ => rfl | ⟨1, _⟩ => rfl)

/-- Entry (p, j) of the block reads the decay row at column j. -/
theorem ix17_3_ix2 (p : Fin 128) (j : Fin 2048) : Cert.KernelIdeal.ValueP.ix17_3 (ix2 p j) = ix2 (0 : Fin 1) j :=
  funext fun a => Fin.ext (by match a with | ⟨0, _⟩ => rfl | ⟨1, _⟩ => rfl)

/-- The pot_next block, entry (p, j), is the specification's new potential of the block's rows. -/
theorem E17_eq (P0 P1 : Vec Ideal S128x1024 .f32) (P2 : Vec Ideal S128x2048 .f32) (P3 P4 P5 P6 : Vec Ideal S1024x2048 .bf16) (P7 P8 P9 : Vec Ideal S1x2048 .f32)
    (Win : Mat 2048 2048) (bin tresh decay : Row 2048)
    (hpay3 : ∀ (p : Fin 128) (j : Fin 2048), k0_pay3 (F := Ideal) P0 P1 P2 P3 P4 P5 P6 P7 (ix2 p j) = potTmp (R := 128) P0 P1 P2 Win bin p j)
    (h8 : ∀ j : Fin 2048, P8 (ix2 (0 : Fin 1) j) = tresh (ix1 j))
    (h9 : ∀ j : Fin 2048, P9 (ix2 (0 : Fin 1) j) = decay (ix1 j))
    (p : Fin 128) (j : Fin 2048) :
    Cert.KernelIdeal.ValueP.E17 (F := Ideal) P0 P1 P2 P3 P4 P5 P6 P7 P8 P9 (ix2 p j) = potNext (R := 128) P0 P1 P2 Win bin tresh decay p j := by
  show FloatOps.mulf (FloatOps.mulf (k0_pay3 (F := Ideal) P0 P1 P2 P3 P4 P5 P6 P7 (Cert.KernelIdeal.ValueP.ix17_0 (ix2 p j)))
      (FloatOps.subf (Scalar.ofBits (F := Ideal) .f32 0x3F800000#32)
        (FloatOps.sitofp (F := Ideal) .f32 ((FloatOps.cmpf .ogt (k0_pay3 (F := Ideal) P0 P1 P2 P3 P4 P5 P6 P7 (Cert.KernelIdeal.ValueP.ix17_1 (ix2 p j)))
          (P8 (Cert.KernelIdeal.ValueP.ix17_2 (ix2 p j)))).setWidth 32))))
      (P9 (Cert.KernelIdeal.ValueP.ix17_3 (ix2 p j))) = _
  rw [ix17_0_ix2, ix17_1_ix2, ix17_2_ix2, ix17_3_ix2, hpay3 p j, h8 j, h9 j, spike_kernel, one_f32]
  unfold potNext
  rfl

end Cert.GatedCell.Block

end
-- ==== Proof.StateBlock.lean ====
/-
  The kernel's new hidden state on one block of 128 rows is the specification's.

  With `h` (128×1024) the block of the hidden state, `pot` (128×2048) the block's potential before the threshold (given
  here as a hypothesis: it is the specification's `potTmp` of the block's rows), `tresh` the threshold row, the kernel computes

    a   = s · pot,  s = 1 where tresh < pot, else 0          (the comparison as one bit, widened and read as an integer)
    g   = (a · M₁ + h · M₂) + c                              (ONE fused 128×2048 pre-activation: M₁ is 2048×2048, M₂ 1024×2048)
    z   = σ(g[:, 0:1024]),  r = σ(g[:, 1024:2048])
    n   = tanh((a · N₁ + (h ∘ r) · N₂) + bₙ)
    h'  = (1 − z) · h + z · n

  where the columns `n` and `1024 + n` of `M₁`, `M₂`, `c` are column `n` of the update gate's and of the reset gate's
  matrix (upper 2048 rows, lower 1024 rows) and bias, and `N₁`, `N₂` the candidate's upper and lower rows. Every change of
  format is the identity on the extended reals, a matrix product into a zero accumulator is the sum over the shared
  coordinate, and a column slice reads the shifted column; so entry `(p, n)` of the block is `hNext` at `(p, n)`, term by
  term, with no finiteness assumption. The module proves, bottom-up: the literal one and the spike (`one_f32`,
  `spike_kernel`), a broadcast row and a column slice read at an index, the four matrix products at an index, the three
  composite values (`pay6_apply`, `pay7_apply`, `pay9_apply`), a gate read off the fused pre-activation (`pay7_gate`), and
  the block's entry (`E16_eq`).
-/
import proofs.«135316_j58360015618523_2_alg».proof.Proof.KernelIdealValue
import proofs.«135316_j58360015618523_2_alg».proof.Proof.Spec
import Idealize.ShloMosaic.Lib.ValueIdx
import Idealize.ShloMosaic.Lib.Pipeline.Value
import Idealize.ShloMosaic.PureOps.Ideal.Laws

noncomputable section

open scoped BigOperators

namespace Cert.GatedCell.Block16

open Cert.GatedCell Idealize.ShloMosaic Idealize.ShloMosaic.ValueIdx
open Cert.KernelIdeal Cert.KernelIdeal.Gen

/-- The word `0x3F800000` read as a single-precision float is the extended real `1`. -/
theorem one_f32 : Scalar.ofBits (F := Ideal) .f32 0x3F800000#32 = (1 : EReal) := by
  show Ideal.ofBits .f32 0x3F800000#32 = 1
  simp [Ideal.ofBits, Ideal.ieee, -EReal.coe_mul]
  norm_num

/-- The kernel's spike — the comparison `tr < pt` as one bit, widened to 32 bits and read as a signed integer — is the
    specification's: `1` where the potential exceeds the threshold, else `0`. -/
theorem spike_kernel (pt tr : EReal) :
    FloatOps.sitofp (F := Ideal) .f32 ((FloatOps.cmpf (F := Ideal) (φ := .f32) .ogt pt tr).setWidth 32) = spike pt tr := by
  show (((BitVec.setWidth 32 (Ideal.cmp .ogt pt tr)).toInt : ℝ) : EReal) = spike pt tr
  unfold spike Ideal.cmp
  by_cases h : tr < pt
  · simp [h]
  · simp [h]

/-- A row of 2048 entries, cast to its own shape and broadcast down 128 rows, reads at `(p, k)` the row's entry `k`. -/
theorem row2048_apply {α : Type} (v : S1x2048.Idx → α) (p : Fin 128) (k : Fin 2048) :
    broadcastTo S128x2048 (shapeCast S1x2048 v shapeCasts_S1x2048_S1x2048) broadcasts_S1x2048_S128x2048 (ix2 p k)
      = v (ix2 (0 : Fin 1) k) := by
  rw [shapeCast_self]
  exact broadcastTo_apply v broadcasts_S1x2048_S128x2048 (ix2 p k) (ix2 (0 : Fin 1) k) (fun a => match a with
    | ⟨0, _⟩ => by show 0 = (if (1 : Nat) = 1 then 0 else p.val); rw [if_pos rfl]
    | ⟨1, _⟩ => by show k.val = (if (2048 : Nat) = 1 then 0 else k.val); rw [if_neg (by decide)])

/-- A 128×2048 block against a 2048×2048 matrix into a zero accumulator, entry `(p, q)`: the sum over the 2048 shared coordinates. -/
theorem matmul_act_gates {φ₁ φ₂ : FTy} (a : FVec Ideal S128x2048 φ₁) (w : FVec Ideal S2048x2048 φ₂) (p : Fin 128) (q : Fin 2048) :
    matmul dot_S128x2048_S2048x2048_S128x2048_1_0_0_1_n_n none a w (constant S128x2048 .f32 0x00000000#32) (ix2 p q)
      = ∑ k : Fin 2048, a (ix2 p k) * w (ix2 k q) := by
  refine (Ideal.matmul_constant_zero_apply dot_S128x2048_S2048x2048_S128x2048_1_0_0_1_n_n none a w (ix2 p q)).trans ?_
  rw [← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have l0 : ∀ (i : S128x2048.Idx) (c : dot_S128x2048_S2048x2048_S128x2048_1_0_0_1_n_n.contr.Idx), (dot_S128x2048_S2048x2048_S128x2048_1_0_0_1_n_n.lhsIdx i c 0).val = (i 0).val := by
    intro i c
    unfold DotDims.lhsIdx
    rw [dif_neg (show ¬(0 : Fin S128x2048.rank) ∈ dot_S128x2048_S2048x2048_S128x2048_1_0_0_1_n_n.lhsBatch by decide),
      dif_pos (show (0 : Fin S128x2048.rank) ∈ dot_S128x2048_S2048x2048_S128x2048_1_0_0_1_n_n.lhsNonContracting by decide)]
    rfl
  have r1 : ∀ (i : S128x2048.Idx) (c : dot_S128x2048_S2048x2048_S128x2048_1_0_0_1_n_n.contr.Idx), (dot_S128x2048_S2048x2048_S128x2048_1_0_0_1_n_n.rhsIdx i c 1).val = (i 1).val := by
    intro i c
    unfold DotDims.rhsIdx
    rw [dif_neg (show ¬(1 : Fin S2048x2048.rank) ∈ dot_S128x2048_S2048x2048_S128x2048_1_0_0_1_n_n.rhsBatch by decide),
      dif_pos (show (1 : Fin S2048x2048.rank) ∈ dot_S128x2048_S2048x2048_S128x2048_1_0_0_1_n_n.rhsNonContracting by decide)]
    rfl
  have el : dot_S128x2048_S2048x2048_S128x2048_1_0_0_1_n_n.lhsIdx (ix2 p q) ((contrEquiv1 dot_S128x2048_S2048x2048_S128x2048_1_0_0_1_n_n 2048 rfl rfl).symm k) = ix2 p k :=
    funext fun c => Fin.ext (by
      match c with
      | ⟨0, _⟩ => exact l0 _ _
      | ⟨1, _⟩ => exact (dot_S128x2048_S2048x2048_S128x2048_1_0_0_1_n_n.lhsIdx_val_of_single rfl _ _).trans hk)
  have er : dot_S128x2048_S2048x2048_S128x2048_1_0_0_1_n_n.rhsIdx (ix2 p q) ((contrEquiv1 dot_S128x2048_S2048x2048_S128x2048_1_0_0_1_n_n 2048 rfl rfl).symm k) = ix2 k q :=
    funext fun c => Fin.ext (by
      match c with
      | ⟨0, _⟩ => exact (dot_S128x2048_S2048x2048_S128x2048_1_0_0_1_n_n.rhsIdx_val_of_single rfl _ _).trans hk
      | ⟨1, _⟩ => exact r1 _ _)
  rw [el, er]

/-- A 128×1024 block against a 1024×2048 matrix into a zero accumulator, entry `(p, q)`: the sum over the 1024 shared coordinates. -/
theorem matmul_hid_gates {φ₁ φ₂ : FTy} (a : FVec Ideal S128x1024 φ₁) (w : FVec Ideal S1024x2048 φ₂) (p : Fin 128) (q : Fin 2048) :
    matmul dot_S128x1024_S1024x2048_S128x2048_1_0_0_1_n_n none a w (constant S128x2048 .f32 0x00000000#32) (ix2 p q)
      = ∑ k : Fin 1024, a (ix2 p k) * w (ix2 k q) := by
  refine (Ideal.matmul_constant_zero_apply dot_S128x1024_S1024x2048_S128x2048_1_0_0_1_n_n none a w (ix2 p q)).trans ?_
  rw [← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have l0 : ∀ (i : S128x2048.Idx) (c : dot_S128x1024_S1024x2048_S128x2048_1_0_0_1_n_n.contr.Idx), (dot_S128x1024_S1024x2048_S128x2048_1_0_0_1_n_n.lhsIdx i c 0).val = (i 0).val := by
    intro i c
    unfold DotDims.lhsIdx
    rw [dif_neg (show ¬(0 : Fin S128x1024.rank) ∈ dot_S128x1024_S1024x2048_S128x2048_1_0_0_1_n_n.lhsBatch by decide),
      dif_pos (show (0 : Fin S128x1024.rank) ∈ dot_S128x1024_S1024x2048_S128x2048_1_0_0_1_n_n.lhsNonContracting by decide)]
    rfl
  have r1 : ∀ (i : S128x2048.Idx) (c : dot_S128x1024_S1024x2048_S128x2048_1_0_0_1_n_n.contr.Idx), (dot_S128x1024_S1024x2048_S128x2048_1_0_0_1_n_n.rhsIdx i c 1).val = (i 1).val := by
    intro i c
    unfold DotDims.rhsIdx
    rw [dif_neg (show ¬(1 : Fin S1024x2048.rank) ∈ dot_S128x1024_S1024x2048_S128x2048_1_0_0_1_n_n.rhsBatch by decide),
      dif_pos (show (1 : Fin S1024x2048.rank) ∈ dot_S128x1024_S1024x2048_S128x2048_1_0_0_1_n_n.rhsNonContracting by decide)]
    rfl
  have el : dot_S128x1024_S1024x2048_S128x2048_1_0_0_1_n_n.lhsIdx (ix2 p q) ((contrEquiv1 dot_S128x1024_S1024x2048_S128x2048_1_0_0_1_n_n 1024 rfl rfl).symm k) = ix2 p k :=
    funext fun c => Fin.ext (by
      match c with
      | ⟨0, _⟩ => exact l0 _ _
      | ⟨1, _⟩ => exact (dot_S128x1024_S1024x2048_S128x2048_1_0_0_1_n_n.lhsIdx_val_of_single rfl _ _).trans hk)
  have er : dot_S128x1024_S1024x2048_S128x2048_1_0_0_1_n_n.rhsIdx (ix2 p q) ((contrEquiv1 dot_S128x1024_S1024x2048_S128x2048_1_0_0_1_n_n 1024 rfl rfl).symm k) = ix2 k q :=
    funext fun c => Fin.ext (by
      match c with
      | ⟨0, _⟩ => exact (dot_S128x1024_S1024x2048_S128x2048_1_0_0_1_n_n.rhsIdx_val_of_single rfl _ _).trans hk
      | ⟨1, _⟩ => exact r1 _ _)
  rw [el, er]

/-- A 128×2048 block against a 2048×1024 matrix into a zero accumulator, entry `(p, q)`: the sum over the 2048 shared coordinates. -/
theorem matmul_act_cand {φ₁ φ₂ : FTy} (a : FVec Ideal S128x2048 φ₁) (w : FVec Ideal S2048x1024 φ₂) (p : Fin 128) (q : Fin 1024) :
    matmul dot_S128x2048_S2048x1024_S128x1024_1_0_0_1_n_n none a w (constant S128x1024 .f32 0x00000000#32) (ix2 p q)
      = ∑ k : Fin 2048, a (ix2 p k) * w (ix2 k q) := by
  refine (Ideal.matmul_constant_zero_apply dot_S128x2048_S2048x1024_S128x1024_1_0_0_1_n_n none a w (ix2 p q)).trans ?_
  rw [← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have l0 : ∀ (i : S128x1024.Idx) (c : dot_S128x2048_S2048x1024_S128x1024_1_0_0_1_n_n.contr.Idx), (dot_S128x2048_S2048x1024_S128x1024_1_0_0_1_n_n.lhsIdx i c 0).val = (i 0).val := by
    intro i c
    unfold DotDims.lhsIdx
    rw [dif_neg (show ¬(0 : Fin S128x2048.rank) ∈ dot_S128x2048_S2048x1024_S128x1024_1_0_0_1_n_n.lhsBatch by decide),
      dif_pos (show (0 : Fin S128x2048.rank) ∈ dot_S128x2048_S2048x1024_S128x1024_1_0_0_1_n_n.lhsNonContracting by decide)]
    rfl
  have r1 : ∀ (i : S128x1024.Idx) (c : dot_S128x2048_S2048x1024_S128x1024_1_0_0_1_n_n.contr.Idx), (dot_S128x2048_S2048x1024_S128x1024_1_0_0_1_n_n.rhsIdx i c 1).val = (i 1).val := by
    intro i c
    unfold DotDims.rhsIdx
    rw [dif_neg (show ¬(1 : Fin S2048x1024.rank) ∈ dot_S128x2048_S2048x1024_S128x1024_1_0_0_1_n_n.rhsBatch by decide),
      dif_pos (show (1 : Fin S2048x1024.rank) ∈ dot_S128x2048_S2048x1024_S128x1024_1_0_0_1_n_n.rhsNonContracting by decide)]
    rfl
  have el : dot_S128x2048_S2048x1024_S128x1024_1_0_0_1_n_n.lhsIdx (ix2 p q) ((contrEquiv1 dot_S128x2048_S2048x1024_S128x1024_1_0_0_1_n_n 2048 rfl rfl).symm k) = ix2 p k :=
    funext fun c => Fin.ext (by
      match c with
      | ⟨0, _⟩ => exact l0 _ _
      | ⟨1, _⟩ => exact (dot_S128x2048_S2048x1024_S128x1024_1_0_0_1_n_n.lhsIdx_val_of_single rfl _ _).trans hk)
  have er : dot_S128x2048_S2048x1024_S128x1024_1_0_0_1_n_n.rhsIdx (ix2 p q) ((contrEquiv1 dot_S128x2048_S2048x1024_S128x1024_1_0_0_1_n_n 2048 rfl rfl).symm k) = ix2 k q :=
    funext fun c => Fin.ext (by
      match c with
      | ⟨0, _⟩ => exact (dot_S128x2048_S2048x1024_S128x1024_1_0_0_1_n_n.rhsIdx_val_of_single rfl _ _).trans hk
      | ⟨1, _⟩ => exact r1 _ _)
  rw [el, er]

/-- A 128×1024 block against a 1024×1024 matrix into a zero accumulator, entry `(p, q)`: the sum over the 1024 shared coordinates. -/
theorem matmul_hid_cand {φ₁ φ₂ : FTy} (a : FVec Ideal S128x1024 φ₁) (w : FVec Ideal S1024x1024 φ₂) (p : Fin 128) (q : Fin 1024) :
    matmul dot_S128x1024_S1024x1024_S128x1024_1_0_0_1_n_n none a w (constant S128x1024 .f32 0x00000000#32) (ix2 p q)
      = ∑ k : Fin 1024, a (ix2 p k) * w (ix2 k q) := by
  refine (Ideal.matmul_constant_zero_apply dot_S128x1024_S1024x1024_S128x1024_1_0_0_1_n_n none a w (ix2 p q)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have l0 : ∀ (i : S128x1024.Idx) (c : dot_S128x1024_S1024x1024_S128x1024_1_0_0_1_n_n.contr.Idx), (dot_S128x1024_S1024x1024_S128x1024_1_0_0_1_n_n.lhsIdx i c 0).val = (i 0).val := by
    intro i c
    unfold DotDims.lhsIdx
    rw [dif_neg (show ¬(0 : Fin S128x1024.rank) ∈ dot_S128x1024_S1024x1024_S128x1024_1_0_0_1_n_n.lhsBatch by decide),
      dif_pos (show (0 : Fin S128x1024.rank) ∈ dot_S128x1024_S1024x1024_S128x1024_1_0_0_1_n_n.lhsNonContracting by decide)]
    rfl
  have r1 : ∀ (i : S128x1024.Idx) (c : dot_S128x1024_S1024x1024_S128x1024_1_0_0_1_n_n.contr.Idx), (dot_S128x1024_S1024x1024_S128x1024_1_0_0_1_n_n.rhsIdx i c 1).val = (i 1).val := by
    intro i c
    unfold DotDims.rhsIdx
    rw [dif_neg (show ¬(1 : Fin S1024x1024.rank) ∈ dot_S128x1024_S1024x1024_S128x1024_1_0_0_1_n_n.rhsBatch by decide),
      dif_pos (show (1 : Fin S1024x1024.rank) ∈ dot_S128x1024_S1024x1024_S128x1024_1_0_0_1_n_n.rhsNonContracting by decide)]
    rfl
  have el : dot_S128x1024_S1024x1024_S128x1024_1_0_0_1_n_n.lhsIdx (ix2 p q) ((contrEquiv1 dot_S128x1024_S1024x1024_S128x1024_1_0_0_1_n_n 1024 rfl rfl).symm k) = ix2 p k :=
    funext fun c => Fin.ext (by
      match c with
      | ⟨0, _⟩ => exact l0 _ _
      | ⟨1, _⟩ => exact (dot_S128x1024_S1024x1024_S128x1024_1_0_0_1_n_n.lhsIdx_val_of_single rfl _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q :=
    funext fun c => Fin.ext (by
      match c with
      | ⟨0, _⟩ => exact (dot_S128x1024_S1024x1024_S128x1024_1_0_0_1_n_n.rhsIdx_val_of_single rfl _ _).trans hk
      | ⟨1, _⟩ => exact r1 _ _)
  rw [el, er]

/-- The upper column slice of a 128×2048 block (columns 1024 … 2047) reads at `(p, n)` the block's column `1024 + n`. -/
theorem slice_hi_apply {α : Type} (x : S128x2048.Idx → α) (p : Fin 128) (n : Fin 1024) :
    extractStridedSlice S128x1024 ![0, 1024] x slices_S128x2048_o0_1024_S128x1024 (ix2 p n) = x (ix2 p (inH n)) :=
  extractStridedSlice_apply ![0, 1024] x slices_S128x2048_o0_1024_S128x1024 (ix2 p n) (ix2 p (inH n)) (fun a => match a with
    | ⟨0, _⟩ => by show p.val = 0 + p.val; omega
    | ⟨1, _⟩ => by show 1024 + n.val = 1024 + n.val; rfl)

/-- What a unit passes on, as the kernel computes it at `(p, k)`: the spike of the potential against the threshold row,
    times the potential (the change of format is the identity on extended reals). -/
theorem pay6_apply (v34 : FVec Ideal S128x2048 .f32) (v35 : Vec Ideal S1x2048 .f32) (p : Fin 128) (k : Fin 2048) :
    k0_pay6 (F := Ideal) v34 v35 (ix2 p k) = spike (v34 (ix2 p k)) (v35 (ix2 (0 : Fin 1) k)) * v34 (ix2 p k) := by
  unfold k0_pay6 k0_pay4
  show FloatOps.sitofp (F := Ideal) .f32 ((FloatOps.cmpf (F := Ideal) (φ := .f32) .ogt (v34 (ix2 p k))
      (broadcastTo S128x2048 (shapeCast S1x2048 v35 shapeCasts_S1x2048_S1x2048) broadcasts_S1x2048_S128x2048 (ix2 p k))).setWidth 32)
      * v34 (ix2 p k) = _
  rw [row2048_apply, spike_kernel]

/-- The fused gate pre-activation at `(p, q)`: what the units pass on against the 2048×2048 matrix, the state-side block
    against the 1024×2048 matrix, and the bias row. -/
theorem pay7_apply (v7 : FVec Ideal S128x1024 .bf16) (v34 : FVec Ideal S128x2048 .f32) (v35 : Vec Ideal S1x2048 .f32)
    (v51 : Vec Ideal S2048x2048 .bf16) (v54 : Vec Ideal S1024x2048 .bf16) (v58 : Vec Ideal S1x2048 .f32) (p : Fin 128) (q : Fin 2048) :
    k0_pay7 (F := Ideal) v7 v34 v35 v51 v54 v58 (ix2 p q)
      = ((∑ k : Fin 2048, k0_pay6 (F := Ideal) v34 v35 (ix2 p k) * v51 (ix2 k q)) + (∑ k : Fin 1024, v7 (ix2 p k) * v54 (ix2 k q)))
        + v58 (ix2 (0 : Fin 1) q) := by
  unfold k0_pay7
  show (matmul dot_S128x2048_S2048x2048_S128x2048_1_0_0_1_n_n none (k0_pay6 (F := Ideal) v34 v35)
        (shapeCast S2048x2048 v51 shapeCasts_S2048x2048_S2048x2048) (constant S128x2048 .f32 0x00000000#32) (ix2 p q)
      + matmul dot_S128x1024_S1024x2048_S128x2048_1_0_0_1_n_n none v7
        (shapeCast S1024x2048 v54 shapeCasts_S1024x2048_S1024x2048) (constant S128x2048 .f32 0x00000000#32) (ix2 p q))
      + broadcastTo S128x2048 (shapeCast S1x2048 v58 shapeCasts_S1x2048_S1x2048) broadcasts_S1x2048_S128x2048 (ix2 p q) = _
  rw [shapeCast_self v51, shapeCast_self v54, matmul_act_gates, matmul_hid_gates, row2048_apply]

/-- The candidate's pre-activation without its bias at `(p, n)`: what the units pass on against the 2048×1024 matrix, and
    the hidden state times the reset gate (the logistic of the fused pre-activation's column `1024 + k`) against the
    1024×1024 matrix. -/
theorem pay9_apply (v1 : Vec Ideal S128x1024 .f32) (v7 : FVec Ideal S128x1024 .bf16) (v34 : FVec Ideal S128x2048 .f32) (v35 : Vec Ideal S1x2048 .f32)
    (v51 : Vec Ideal S2048x2048 .bf16) (v54 : Vec Ideal S1024x2048 .bf16) (v58 : Vec Ideal S1x2048 .f32)
    (v68 : Vec Ideal S2048x1024 .bf16) (v71 : Vec Ideal S1024x1024 .bf16) (p : Fin 128) (n : Fin 1024) :
    k0_pay9 (F := Ideal) v1 v7 v34 v35 v51 v54 v58 v68 v71 (ix2 p n)
      = (∑ k : Fin 2048, k0_pay6 (F := Ideal) v34 v35 (ix2 p k) * v68 (ix2 k n))
        + (∑ k : Fin 1024, (v1 (ix2 p k) * Ideal.logistic (k0_pay7 (F := Ideal) v7 v34 v35 v51 v54 v58 (ix2 p (inH k)))) * v71 (ix2 k n)) := by
  unfold k0_pay9
  show matmul dot_S128x2048_S2048x1024_S128x1024_1_0_0_1_n_n none (k0_pay6 (F := Ideal) v34 v35)
        (shapeCast S2048x1024 v68 shapeCasts_S2048x1024_S2048x1024) (constant S128x1024 .f32 0x00000000#32) (ix2 p n)
      + matmul dot_S128x1024_S1024x1024_S128x1024_1_0_0_1_n_n none
        (truncf .bf16 (mulf v1 (logistic (extractStridedSlice S128x1024 ![0, 1024] (k0_pay7 (F := Ideal) v7 v34 v35 v51 v54 v58)
          slices_S128x2048_o0_1024_S128x1024))) bitsLt_bf16_f32)
        (shapeCast S1024x1024 v71 shapeCasts_S1024x1024_S1024x1024) (constant S128x1024 .f32 0x00000000#32) (ix2 p n) = _
  rw [shapeCast_self v68, shapeCast_self v71, matmul_act_cand, matmul_hid_cand]
  refine congrArg (_ + ·) (Finset.sum_congr rfl fun k _ => ?_)
  show (v1 (ix2 p k) * FloatOps.logistic (extractStridedSlice S128x1024 ![0, 1024] (k0_pay7 (F := Ideal) v7 v34 v35 v51 v54 v58)
      slices_S128x2048_o0_1024_S128x1024 (ix2 p k))) * v71 (ix2 k n) = _
  rw [slice_hi_apply, Ideal.logistic_def]

/-- A gate read off the fused pre-activation: where the matrices' column `col n` holds a gate matrix's column `n` (upper
    2048 rows in the 2048×2048 matrix, lower 1024 rows in the 1024×2048 one) and the bias row's entry `col n` the gate's
    bias, the fused pre-activation at `(p, col n)` is that gate's pre-activation at `(p, n)`. -/
theorem pay7_gate (h : Vec Ideal S128x1024 .f32) (pot : FVec Ideal S128x2048 .f32) (P8 : Vec Ideal S1x2048 .f32)
    (P9 : Vec Ideal S2048x2048 .bf16) (P10 : Vec Ideal S1024x2048 .bf16) (P11 : Vec Ideal S1x2048 .f32)
    (A : Fin 128 → Fin 2048 → EReal) (hA : ∀ (p : Fin 128) (k : Fin 2048), k0_pay6 (F := Ideal) pot P8 (ix2 p k) = A p k)
    (W : Mat 3072 1024) (bias : Row 1024) (col : Fin 1024 → Fin 2048)
    (h9 : ∀ (k : Fin 2048) (n : Fin 1024), P9 (ix2 k (col n)) = W (ix2 (gateA k) n))
    (h10 : ∀ (k : Fin 1024) (n : Fin 1024), P10 (ix2 k (col n)) = W (ix2 (gateH k) n))
    (h11 : ∀ n : Fin 1024, P11 (ix2 (0 : Fin 1) (col n)) = bias (ix1 n))
    (p : Fin 128) (n : Fin 1024) :
    k0_pay7 (F := Ideal) (truncf .bf16 h bitsLt_bf16_f32) pot P8 P9 P10 P11 (ix2 p (col n))
      = gatePre (R := 128) A (fun b k => h (ix2 b k)) W bias p n := by
  refine (pay7_apply _ pot P8 P9 P10 P11 p (col n)).trans ?_
  unfold gatePre
  refine congrArg₂ (· + ·) (congrArg₂ (· + ·) (Finset.sum_congr rfl fun k _ => ?_) (Finset.sum_congr rfl fun k _ => ?_)) (h11 n)
  · rw [hA p k, h9 k n]
  · rw [h10 k n]; rfl

/-- The h_next block, entry (p, n), is the specification's new hidden state of the block's rows. -/
theorem E16_eq (P0 P1 : Vec Ideal S128x1024 .f32) (P2 : Vec Ideal S128x2048 .f32) (P3 P4 P5 P6 : Vec Ideal S1024x2048 .bf16) (P7 P8 : Vec Ideal S1x2048 .f32)
    (P9 : Vec Ideal S2048x2048 .bf16) (P10 : Vec Ideal S1024x2048 .bf16) (P11 : Vec Ideal S1x2048 .f32) (P12 : Vec Ideal S2048x1024 .bf16) (P13 : Vec Ideal S1024x1024 .bf16) (P14 : Vec Ideal S1x1024 .f32)
    (Win : Mat 2048 2048) (bin tresh : Row 2048) (Wz : Mat 3072 1024) (bz : Row 1024) (Wr : Mat 3072 1024) (br : Row 1024) (Wn : Mat 3072 1024) (bn : Row 1024)
    (hpay3 : ∀ (p : Fin 128) (j : Fin 2048), k0_pay3 (F := Ideal) P1 P0 P2 P3 P4 P5 P6 P7 (ix2 p j) = potTmp (R := 128) P1 P0 P2 Win bin p j)
    (h8 : ∀ j : Fin 2048, P8 (ix2 (0 : Fin 1) j) = tresh (ix1 j))
    (h9z : ∀ (k : Fin 2048) (n : Fin 1024), P9 (ix2 k (inX n)) = Wz (ix2 (gateA k) n))
    (h9r : ∀ (k : Fin 2048) (n : Fin 1024), P9 (ix2 k (inH n)) = Wr (ix2 (gateA k) n))
    (h10z : ∀ (k : Fin 1024) (n : Fin 1024), P10 (ix2 k (inX n)) = Wz (ix2 (gateH k) n))
    (h10r : ∀ (k : Fin 1024) (n : Fin 1024), P10 (ix2 k (inH n)) = Wr (ix2 (gateH k) n))
    (h11z : ∀ n : Fin 1024, P11 (ix2 (0 : Fin 1) (inX n)) = bz (ix1 n))
    (h11r : ∀ n : Fin 1024, P11 (ix2 (0 : Fin 1) (inH n)) = br (ix1 n))
    (h12 : ∀ (k : Fin 2048) (n : Fin 1024), P12 (ix2 k n) = Wn (ix2 (gateA k) n))
    (h13 : ∀ (k : Fin 1024) (n : Fin 1024), P13 (ix2 k n) = Wn (ix2 (gateH k) n))
    (h14 : ∀ n : Fin 1024, P14 (ix2 (0 : Fin 1) n) = bn (ix1 n))
    (p : Fin 128) (n : Fin 1024) :
    Cert.KernelIdeal.ValueP.E16 (F := Ideal) P0 P1 P2 P3 P4 P5 P6 P7 P8 P9 P10 P11 P12 P13 P14 (ix2 p n)
      = hNext (R := 128) P1 P0 P2 Win bin tresh Wz bz Wr br Wn bn p n := by
  -- where the block index `(p, n)` reads each operand
  have e0 : ValueP.ix16_0 (ix2 p n) = ix2 p (inX n) := funext fun a => match a with | ⟨0, _⟩ => rfl | ⟨1, _⟩ => rfl
  have e1 : ValueP.ix16_1 (ix2 p n) = ix2 p n := funext fun a => match a with | ⟨0, _⟩ => rfl | ⟨1, _⟩ => rfl
  have e2 : ValueP.ix16_2 (ix2 p n) = ix2 p (inX n) := funext fun a => match a with | ⟨0, _⟩ => rfl | ⟨1, _⟩ => rfl
  have e3 : ValueP.ix16_3 (ix2 p n) = ix2 p n := funext fun a => match a with | ⟨0, _⟩ => rfl | ⟨1, _⟩ => rfl
  have e4 : ValueP.ix16_4 (ix2 p n) = ix2 (0 : Fin 1) n := funext fun a => match a with | ⟨0, _⟩ => rfl | ⟨1, _⟩ => rfl
  unfold ValueP.E16
  rw [e0, e1, e2, e3, e4]
  -- the potential before the threshold, as one opaque block
  generalize k0_pay3 (F := Ideal) P1 P0 P2 P3 P4 P5 P6 P7 = pot at hpay3 ⊢
  -- what the units pass on
  have hact : ∀ (p : Fin 128) (k : Fin 2048), k0_pay6 (F := Ideal) pot P8 (ix2 p k) = activated (R := 128) P1 P0 P2 Win bin tresh p k := by
    intro p k
    rw [pay6_apply, hpay3 p k, h8 k]
    rfl
  -- the update gate and the reset gate before the logistic
  have hz := pay7_gate P0 pot P8 P9 P10 P11 (activated (R := 128) P1 P0 P2 Win bin tresh) hact Wz bz (fun n => inX n) h9z h10z h11z p n
  have hr := fun k => pay7_gate P0 pot P8 P9 P10 P11 (activated (R := 128) P1 P0 P2 Win bin tresh) hact Wr br (fun n => inH n) h9r h10r h11r p k
  -- the candidate before the hyperbolic tangent
  have hn : k0_pay9 (F := Ideal) P0 (truncf .bf16 P0 bitsLt_bf16_f32) pot P8 P9 P10 P11 P12 P13 (ix2 p n) + P14 (ix2 (0 : Fin 1) n)
      = gatePre (R := 128) (activated (R := 128) P1 P0 P2 Win bin tresh)
          (fun b k => P0 (ix2 b k) * Ideal.logistic (gatePre (R := 128) (activated (R := 128) P1 P0 P2 Win bin tresh) (fun b k => P0 (ix2 b k)) Wr br b k))
          Wn bn p n := by
    rw [pay9_apply]
    unfold gatePre
    refine congrArg₂ (· + ·) (congrArg₂ (· + ·) (Finset.sum_congr rfl fun k _ => ?_) (Finset.sum_congr rfl fun k _ => ?_)) (h14 n)
    · rw [hact p k, h12 k n]
    · rw [hr k, h13 k n]; rfl
  simp only [Ideal.addf_def, Ideal.mulf_def, Ideal.subf_def, Ideal.logistic_def, Ideal.tanh_def]
  rw [one_f32, hz, hn]
  rfl

end Cert.GatedCell.Block16

end
-- ==== Proof.HostSide.lean ====
/-
  What the kernel program's host operations leave in each array the region reads, entry by entry, as an entry of an
  argument array as launched.

  Before the region the program cuts and re-lays the weights: the input layer's matrix `Win` (2048 × 2048) is cut into
  its rows `0 … 1023` (those that meet `x`) and its rows `1024 … 2047` (those that meet `h`), and each half is split
  into a high part (the half rounded to the narrower float format) and a low part (the half less its rounded copy,
  rounded again); the update and reset gates' matrices `Wz`, `Wr` (3072 × 1024) are cut into their rows `0 … 2047`
  (those that meet the activated potential) and `2048 … 3071` (those that meet the hidden state) and the two gates'
  pieces are set side by side, `[Wz | Wr]`, so that one product serves both gates; their biases are set end to end,
  `[bz | br]`; the candidate gate's matrix `Wn` is cut the same way; and every vector (the input layer's bias, the
  thresholds, the decay factors, the biases) is laid out as a matrix of one row.

  On the extended reals a change of float format is the identity, so every one of these arrays is a rearrangement of
  the argument arrays: the theorems below say which entry of which argument each entry is. The high part of a half of
  `Win` is that half; its low part is entry by entry `w - w` (which is `0` exactly when `w` is finite: nothing is
  claimed about that here). Column `n < 1024` of `[Wz | Wr]` is column `n` of `Wz` and column `1024 + n` is column
  `n` of `Wr`; likewise for `[bz | br]`. A row `k` of a lower cut is row `1024 + k` (of `Win`) or `2048 + k` (of a
  gate's matrix) of the whole.

  The first two sections read a slice, a pair of blocks side by side and a vector laid out as one row at an entry, for
  any matrix or vector of the literal extents; the third opens the fold of the host operations once per array and
  rewrites with those.
-/
import proofs.«135316_j58360015618523_2_alg».proof.Proof.Gen.KernelIdeal.Frame
import proofs.«135316_j58360015618523_2_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.GatedCell.Host

open Idealize.ShloMosaic Idealize.ShloMosaic.ValueIdx Idealize.ShloMosaic.TcCoe
open Cert.GatedCell
open Cert.KernelIdeal Cert.KernelIdeal.Gen

variable (m : (ℓ : Loc nD τ sig) → Buf (Elt Ideal) ℓ) (c : Dev nD)

/-! ## Slices of the stacked matrices, read at an entry -/

/-- Rows `0 … 1023` of a `2048 × 2048` matrix: entry `(k, j)` of the slice is entry `(k, j)` of the matrix. -/
theorem slice_in_lo (x : FVec Ideal S2048x2048 .f32) (k : Fin 1024) (j : Fin 2048) :
    extractStridedSlice S1024x2048 ![0, 0] x slices_S2048x2048_S1024x2048_0_0 (ix2 k j) = x (ix2 (inX k) j) :=
  extractStridedSlice_apply _ x _ _ (ix2 (inX k) j) (fun a => by
    match a with
    | ⟨0, _⟩ => show k.val = 0 + k.val; omega
    | ⟨1, _⟩ => show j.val = 0 + j.val; omega)

/-- Rows `1024 … 2047` of a `2048 × 2048` matrix: entry `(k, j)` of the slice is entry `(1024 + k, j)` of the matrix. -/
theorem slice_in_hi (x : FVec Ideal S2048x2048 .f32) (k : Fin 1024) (j : Fin 2048) :
    extractStridedSlice S1024x2048 ![1024, 0] x slices_S2048x2048_S1024x2048_1024_0 (ix2 k j) = x (ix2 (inH k) j) :=
  extractStridedSlice_apply _ x _ _ (ix2 (inH k) j) (fun a => by
    match a with
    | ⟨0, _⟩ => show 1024 + k.val = 1024 + k.val; rfl
    | ⟨1, _⟩ => show j.val = 0 + j.val; omega)

/-- Rows `0 … 2047` of a `3072 × 1024` matrix. -/
theorem slice_gate_lo (x : FVec Ideal S3072x1024 .f32) (k : Fin 2048) (n : Fin 1024) :
    extractStridedSlice S2048x1024 ![0, 0] x slices_S3072x1024_S2048x1024_0_0 (ix2 k n) = x (ix2 (gateA k) n) :=
  extractStridedSlice_apply _ x _ _ (ix2 (gateA k) n) (fun a => by
    match a with
    | ⟨0, _⟩ => show k.val = 0 + k.val; omega
    | ⟨1, _⟩ => show n.val = 0 + n.val; omega)

/-- Rows `2048 … 3071` of a `3072 × 1024` matrix. -/
theorem slice_gate_hi (x : FVec Ideal S3072x1024 .f32) (k : Fin 1024) (n : Fin 1024) :
    extractStridedSlice S1024x1024 ![2048, 0] x slices_S3072x1024_S1024x1024_2048_0 (ix2 k n) = x (ix2 (gateH k) n) :=
  extractStridedSlice_apply _ x _ _ (ix2 (gateH k) n) (fun a => by
    match a with
    | ⟨0, _⟩ => show 2048 + k.val = 2048 + k.val; rfl
    | ⟨1, _⟩ => show n.val = 0 + n.val; omega)

/-! ## Two blocks side by side, and a vector as a one-row matrix, read at an entry -/

/-- Two `2048 × 1024` blocks side by side: a column `n < 1024` of the result is column `n` of the left block. -/
theorem concat2048_left (a b : FVec Ideal S2048x1024 .f32) (k : Fin 2048) (n : Fin 1024) :
    concatenate S2048x2048 1 [⟨S2048x1024, a⟩, ⟨S2048x1024, b⟩] concatenates_S2048x1024_S2048x1024_S2048x2048_d1 (ix2 k (inX n))
      = a (ix2 k n) :=
  concatenate_pair_apply_left (1 : Fin 2) a b _ (ix2 k (inX n)) rfl (ix2 k n)
    (fun d => by match d with | ⟨0, _⟩ => rfl | ⟨1, _⟩ => rfl)

/-- Two `2048 × 1024` blocks side by side: column `1024 + n` of the result is column `n` of the right block. -/
theorem concat2048_right (a b : FVec Ideal S2048x1024 .f32) (k : Fin 2048) (n : Fin 1024) :
    concatenate S2048x2048 1 [⟨S2048x1024, a⟩, ⟨S2048x1024, b⟩] concatenates_S2048x1024_S2048x1024_S2048x2048_d1 (ix2 k (inH n))
      = b (ix2 k n) :=
  concatenate_pair_apply_right (1 : Fin 2) a b _ (ix2 k (inH n)) rfl rfl (ix2 k n)
    (fun d hd => by match d with | ⟨0, _⟩ => rfl | ⟨1, _⟩ => exact absurd rfl hd)
    (by show n.val + 1024 = 1024 + n.val; omega)

/-- Two `1024 × 1024` blocks side by side, a column of the left block. -/
theorem concat1024_left (a b : FVec Ideal S1024x1024 .f32) (k : Fin 1024) (n : Fin 1024) :
    concatenate S1024x2048 1 [⟨S1024x1024, a⟩, ⟨S1024x1024, b⟩] concatenates_S1024x1024_S1024x1024_S1024x2048_d1 (ix2 k (inX n))
      = a (ix2 k n) :=
  concatenate_pair_apply_left (1 : Fin 2) a b _ (ix2 k (inX n)) rfl (ix2 k n)
    (fun d => by match d with | ⟨0, _⟩ => rfl | ⟨1, _⟩ => rfl)

/-- Two `1024 × 1024` blocks side by side, a column of the right block. -/
theorem concat1024_right (a b : FVec Ideal S1024x1024 .f32) (k : Fin 1024) (n : Fin 1024) :
    concatenate S1024x2048 1 [⟨S1024x1024, a⟩, ⟨S1024x1024, b⟩] concatenates_S1024x1024_S1024x1024_S1024x2048_d1 (ix2 k (inH n))
      = b (ix2 k n) :=
  concatenate_pair_apply_right (1 : Fin 2) a b _ (ix2 k (inH n)) rfl rfl (ix2 k n)
    (fun d hd => by match d with | ⟨0, _⟩ => rfl | ⟨1, _⟩ => exact absurd rfl hd)
    (by show n.val + 1024 = 1024 + n.val; omega)

/-- Two vectors of length `1024` end to end: entry `n < 1024` is entry `n` of the first. -/
theorem concatVec_left (a b : FVec Ideal S1024 .f32) (n : Fin 1024) :
    concatenate S2048 0 [⟨S1024, a⟩, ⟨S1024, b⟩] concatenates_S1024_S1024_S2048_d0 (ix1 (inX n)) = a (ix1 n) :=
  concatenate_pair_apply_left (0 : Fin 1) a b _ (ix1 (inX n)) rfl (ix1 n)
    (fun d => by match d with | ⟨0, _⟩ => rfl)

/-- Two vectors of length `1024` end to end: entry `1024 + n` is entry `n` of the second. -/
theorem concatVec_right (a b : FVec Ideal S1024 .f32) (n : Fin 1024) :
    concatenate S2048 0 [⟨S1024, a⟩, ⟨S1024, b⟩] concatenates_S1024_S1024_S2048_d0 (ix1 (inH n)) = b (ix1 n) :=
  concatenate_pair_apply_right (0 : Fin 1) a b _ (ix1 (inH n)) rfl rfl (ix1 n)
    (fun d hd => by match d with | ⟨0, _⟩ => exact absurd rfl hd)
    (by show n.val + 1024 = 1024 + n.val; omega)

/-- A vector of length `2048` laid out as a `1 × 2048` matrix: entry `(0, j)` is entry `j`. -/
theorem row2048 (x : FVec Ideal S2048 .f32) (j : Fin 2048) :
    shapeCast S1x2048 x shapeCasts_S2048_S1x2048 (ix2 (0 : Fin 1) j) = x (ix1 j) :=
  shapeCast_apply x _ _ (ix1 j) (by
    rw [Shape.rowMajor_val_two, Shape.rowMajor_val_one]
    show j.val = 0 * 2048 + j.val
    omega)

/-- A vector of length `1024` laid out as a `1 × 1024` matrix: entry `(0, n)` is entry `n`. -/
theorem row1024 (x : FVec Ideal S1024 .f32) (n : Fin 1024) :
    shapeCast S1x1024 x shapeCasts_S1024_S1x1024 (ix2 (0 : Fin 1) n) = x (ix1 n) :=
  shapeCast_apply x _ _ (ix1 n) (by
    rw [Shape.rowMajor_val_two, Shape.rowMajor_val_one]
    show n.val = 0 * 1024 + n.val
    omega)

/-! ## The windows' arrays when the region is entered -/

/-- The high part of the input layer's rows `0 … 1023` (the rows that meet `x`): the matrix's own entry, the
    rounding to the narrower format being the identity on the extended reals. -/
theorem V_v2 (k : Fin 1024) (j : Fin 2048) :
    V m c main_v2 (ix2 k j) = m ((c : Thread nD τ).loc main_arg3) (ix2 (inX k) j) := by
  have e : (V m c main_v2 : S1024x2048.Idx → EReal)
      = truncf (F := Ideal) .bf16 (extractStridedSlice S1024x2048 ![0, 0] (m ((c : Thread nD τ).loc main_arg3) : FVec Ideal S2048x2048 .f32) slices_S2048x2048_S1024x2048_0_0) bitsLt_bf16_f32 := by
    dsimp only [Gen.V, Gen.hostOps0]; after_results; all_goals rfl
  rw [e]
  rw [truncf_apply, slice_in_lo]

/-- The low part of the input layer's rows `0 … 1023`: the entry less its rounded copy, which on the extended
    reals is the entry less itself. -/
theorem V_v5 (k : Fin 1024) (j : Fin 2048) :
    V m c main_v5 (ix2 k j)
      = HSub.hSub (α := EReal) (β := EReal) (γ := EReal) (m ((c : Thread nD τ).loc main_arg3) (ix2 (inX k) j)) (m ((c : Thread nD τ).loc main_arg3) (ix2 (inX k) j)) := by
  have e : (V m c main_v5 : S1024x2048.Idx → EReal)
      = truncf (F := Ideal) .bf16 (subf (extractStridedSlice S1024x2048 ![0, 0] (m ((c : Thread nD τ).loc main_arg3) : FVec Ideal S2048x2048 .f32) slices_S2048x2048_S1024x2048_0_0)
          (extf .f32 (truncf .bf16 (extractStridedSlice S1024x2048 ![0, 0] (m ((c : Thread nD τ).loc main_arg3) : FVec Ideal S2048x2048 .f32) slices_S2048x2048_S1024x2048_0_0) bitsLt_bf16_f32) bitsLt_bf16_f32)) bitsLt_bf16_f32 := by
    dsimp only [Gen.V, Gen.hostOps0]; after_results; all_goals rfl
  rw [e]
  rw [truncf_apply, subf_apply, extf_apply, truncf_apply, slice_in_lo]

/-- The high part of the input layer's rows `1024 … 2047` (the rows that meet `h`). -/
theorem V_v6 (k : Fin 1024) (j : Fin 2048) :
    V m c main_v6 (ix2 k j) = m ((c : Thread nD τ).loc main_arg3) (ix2 (inH k) j) := by
  have e : (V m c main_v6 : S1024x2048.Idx → EReal)
      = truncf (F := Ideal) .bf16 (extractStridedSlice S1024x2048 ![1024, 0] (m ((c : Thread nD τ).loc main_arg3) : FVec Ideal S2048x2048 .f32) slices_S2048x2048_S1024x2048_1024_0) bitsLt_bf16_f32 := by
    dsimp only [Gen.V, Gen.hostOps0]; after_results; all_goals rfl
  rw [e]
  rw [truncf_apply, slice_in_hi]

/-- The low part of the input layer's rows `1024 … 2047`: the entry less itself. -/
theorem V_v9 (k : Fin 1024) (j : Fin 2048) :
    V m c main_v9 (ix2 k j)
      = HSub.hSub (α := EReal) (β := EReal) (γ := EReal) (m ((c : Thread nD τ).loc main_arg3) (ix2 (inH k) j)) (m ((c : Thread nD τ).loc main_arg3) (ix2 (inH k) j)) := by
  have e : (V m c main_v9 : S1024x2048.Idx → EReal)
      = truncf (F := Ideal) .bf16 (subf (extractStridedSlice S1024x2048 ![1024, 0] (m ((c : Thread nD τ).loc main_arg3) : FVec Ideal S2048x2048 .f32) slices_S2048x2048_S1024x2048_1024_0)
          (extf .f32 (truncf .bf16 (extractStridedSlice S1024x2048 ![1024, 0] (m ((c : Thread nD τ).loc main_arg3) : FVec Ideal S2048x2048 .f32) slices_S2048x2048_S1024x2048_1024_0) bitsLt_bf16_f32) bitsLt_bf16_f32)) bitsLt_bf16_f32 := by
    dsimp only [Gen.V, Gen.hostOps0]; after_results; all_goals rfl
  rw [e]
  rw [truncf_apply, subf_apply, extf_apply, truncf_apply, slice_in_hi]

/-- The input layer's bias as a one-row matrix. -/
theorem V_v24 (j : Fin 2048) :
    V m c main_v24 (ix2 (0 : Fin 1) j) = m ((c : Thread nD τ).loc main_arg4) (ix1 j) := by
  have e : (V m c main_v24 : S1x2048.Idx → EReal) = shapeCast S1x2048 (m ((c : Thread nD τ).loc main_arg4) : FVec Ideal S2048 .f32) shapeCasts_S2048_S1x2048 := by
    dsimp only [Gen.V, Gen.hostOps0]; after_results; all_goals rfl
  rw [e]
  exact row2048 _ j

/-- The thresholds as a one-row matrix. -/
theorem V_v25 (j : Fin 2048) :
    V m c main_v25 (ix2 (0 : Fin 1) j) = m ((c : Thread nD τ).loc main_arg5) (ix1 j) := by
  have e : (V m c main_v25 : S1x2048.Idx → EReal) = shapeCast S1x2048 (m ((c : Thread nD τ).loc main_arg5) : FVec Ideal S2048 .f32) shapeCasts_S2048_S1x2048 := by
    dsimp only [Gen.V, Gen.hostOps0]; after_results; all_goals rfl
  rw [e]
  exact row2048 _ j

/-- The decay factors as a one-row matrix. -/
theorem V_v26 (j : Fin 2048) :
    V m c main_v26 (ix2 (0 : Fin 1) j) = m ((c : Thread nD τ).loc main_arg6) (ix1 j) := by
  have e : (V m c main_v26 : S1x2048.Idx → EReal) = shapeCast S1x2048 (m ((c : Thread nD τ).loc main_arg6) : FVec Ideal S2048 .f32) shapeCasts_S2048_S1x2048 := by
    dsimp only [Gen.V, Gen.hostOps0]; after_results; all_goals rfl
  rw [e]
  exact row2048 _ j

/-- The candidate gate's bias as a one-row matrix. -/
theorem V_v27 (n : Fin 1024) :
    V m c main_v27 (ix2 (0 : Fin 1) n) = m ((c : Thread nD τ).loc main_arg12) (ix1 n) := by
  have e : (V m c main_v27 : S1x1024.Idx → EReal) = shapeCast S1x1024 (m ((c : Thread nD τ).loc main_arg12) : FVec Ideal S1024 .f32) shapeCasts_S1024_S1x1024 := by
    dsimp only [Gen.V, Gen.hostOps0]; after_results; all_goals rfl
  rw [e]
  exact row1024 _ n

/-- The update and reset gates' matrices side by side, rows `0 … 2047` (the rows that meet the activated potential):
    a column `n < 1024` is the update gate's. -/
theorem V_v15_z (k : Fin 2048) (n : Fin 1024) :
    V m c main_v15 (ix2 k (inX n)) = m ((c : Thread nD τ).loc main_arg7) (ix2 (gateA k) n) := by
  have e : (V m c main_v15 : S2048x2048.Idx → EReal)
      = truncf (F := Ideal) .bf16 (concatenate S2048x2048 1 [⟨S2048x1024, extractStridedSlice S2048x1024 ![0, 0] (m ((c : Thread nD τ).loc main_arg7) : FVec Ideal S3072x1024 .f32) slices_S3072x1024_S2048x1024_0_0⟩, ⟨S2048x1024, extractStridedSlice S2048x1024 ![0, 0] (m ((c : Thread nD τ).loc main_arg9) : FVec Ideal S3072x1024 .f32) slices_S3072x1024_S2048x1024_0_0⟩] concatenates_S2048x1024_S2048x1024_S2048x2048_d1) bitsLt_bf16_f32 := by
    dsimp only [Gen.V, Gen.hostOps0]; after_results; all_goals rfl
  rw [e, truncf_apply, concat2048_left, slice_gate_lo]

/-- The same rows: column `1024 + n` is the reset gate's column `n`. -/
theorem V_v15_r (k : Fin 2048) (n : Fin 1024) :
    V m c main_v15 (ix2 k (inH n)) = m ((c : Thread nD τ).loc main_arg9) (ix2 (gateA k) n) := by
  have e : (V m c main_v15 : S2048x2048.Idx → EReal)
      = truncf (F := Ideal) .bf16 (concatenate S2048x2048 1 [⟨S2048x1024, extractStridedSlice S2048x1024 ![0, 0] (m ((c : Thread nD τ).loc main_arg7) : FVec Ideal S3072x1024 .f32) slices_S3072x1024_S2048x1024_0_0⟩, ⟨S2048x1024, extractStridedSlice S2048x1024 ![0, 0] (m ((c : Thread nD τ).loc main_arg9) : FVec Ideal S3072x1024 .f32) slices_S3072x1024_S2048x1024_0_0⟩] concatenates_S2048x1024_S2048x1024_S2048x2048_d1) bitsLt_bf16_f32 := by
    dsimp only [Gen.V, Gen.hostOps0]; after_results; all_goals rfl
  rw [e, truncf_apply, concat2048_right, slice_gate_lo]

/-- The update and reset gates' matrices side by side, rows `2048 … 3071` (the rows that meet the hidden state):
    a column `n < 1024` is the update gate's. -/
theorem V_v17_z (k : Fin 1024) (n : Fin 1024) :
    V m c main_v17 (ix2 k (inX n)) = m ((c : Thread nD τ).loc main_arg7) (ix2 (gateH k) n) := by
  have e : (V m c main_v17 : S1024x2048.Idx → EReal)
      = truncf (F := Ideal) .bf16 (concatenate S1024x2048 1 [⟨S1024x1024, extractStridedSlice S1024x1024 ![2048, 0] (m ((c : Thread nD τ).loc main_arg7) : FVec Ideal S3072x1024 .f32) slices_S3072x1024_S1024x1024_2048_0⟩, ⟨S1024x1024, extractStridedSlice S1024x1024 ![2048, 0] (m ((c : Thread nD τ).loc main_arg9) : FVec Ideal S3072x1024 .f32) slices_S3072x1024_S1024x1024_2048_0⟩] concatenates_S1024x1024_S1024x1024_S1024x2048_d1) bitsLt_bf16_f32 := by
    dsimp only [Gen.V, Gen.hostOps0]; after_results; all_goals rfl
  rw [e, truncf_apply, concat1024_left, slice_gate_hi]

/-- The same rows: column `1024 + n` is the reset gate's column `n`. -/
theorem V_v17_r (k : Fin 1024) (n : Fin 1024) :
    V m c main_v17 (ix2 k (inH n)) = m ((c : Thread nD τ).loc main_arg9) (ix2 (gateH k) n) := by
  have e : (V m c main_v17 : S1024x2048.Idx → EReal)
      = truncf (F := Ideal) .bf16 (concatenate S1024x2048 1 [⟨S1024x1024, extractStridedSlice S1024x1024 ![2048, 0] (m ((c : Thread nD τ).loc main_arg7) : FVec Ideal S3072x1024 .f32) slices_S3072x1024_S1024x1024_2048_0⟩, ⟨S1024x1024, extractStridedSlice S1024x1024 ![2048, 0] (m ((c : Thread nD τ).loc main_arg9) : FVec Ideal S3072x1024 .f32) slices_S3072x1024_S1024x1024_2048_0⟩] concatenates_S1024x1024_S1024x1024_S1024x2048_d1) bitsLt_bf16_f32 := by
    dsimp only [Gen.V, Gen.hostOps0]; after_results; all_goals rfl
  rw [e, truncf_apply, concat1024_right, slice_gate_hi]

/-- The update and reset gates' biases end to end, as a one-row matrix: entry `n < 1024` is the update gate's. -/
theorem V_v19_z (n : Fin 1024) :
    V m c main_v19 (ix2 (0 : Fin 1) (inX n)) = m ((c : Thread nD τ).loc main_arg8) (ix1 n) := by
  have e : (V m c main_v19 : S1x2048.Idx → EReal)
      = shapeCast S1x2048 (concatenate S2048 0 [⟨S1024, (m ((c : Thread nD τ).loc main_arg8) : FVec Ideal S1024 .f32)⟩, ⟨S1024, (m ((c : Thread nD τ).loc main_arg10) : FVec Ideal S1024 .f32)⟩] concatenates_S1024_S1024_S2048_d0) shapeCasts_S2048_S1x2048 := by
    dsimp only [Gen.V, Gen.hostOps0]; after_results; all_goals rfl
  rw [e, row2048, concatVec_left]

/-- The same row: entry `1024 + n` is the reset gate's entry `n`. -/
theorem V_v19_r (n : Fin 1024) :
    V m c main_v19 (ix2 (0 : Fin 1) (inH n)) = m ((c : Thread nD τ).loc main_arg10) (ix1 n) := by
  have e : (V m c main_v19 : S1x2048.Idx → EReal)
      = shapeCast S1x2048 (concatenate S2048 0 [⟨S1024, (m ((c : Thread nD τ).loc main_arg8) : FVec Ideal S1024 .f32)⟩, ⟨S1024, (m ((c : Thread nD τ).loc main_arg10) : FVec Ideal S1024 .f32)⟩] concatenates_S1024_S1024_S2048_d0) shapeCasts_S2048_S1x2048 := by
    dsimp only [Gen.V, Gen.hostOps0]; after_results; all_goals rfl
  rw [e, row2048, concatVec_right]

/-- The candidate gate's matrix, rows `0 … 2047`. -/
theorem V_v21 (k : Fin 2048) (n : Fin 1024) :
    V m c main_v21 (ix2 k n) = m ((c : Thread nD τ).loc main_arg11) (ix2 (gateA k) n) := by
  have e : (V m c main_v21 : S2048x1024.Idx → EReal)
      = truncf (F := Ideal) .bf16 (extractStridedSlice S2048x1024 ![0, 0] (m ((c : Thread nD τ).loc main_arg11) : FVec Ideal S3072x1024 .f32) slices_S3072x1024_S2048x1024_0_0) bitsLt_bf16_f32 := by
    dsimp only [Gen.V, Gen.hostOps0]; after_results; all_goals rfl
  rw [e, truncf_apply, slice_gate_lo]

/-- The candidate gate's matrix, rows `2048 … 3071`. -/
theorem V_v23 (k : Fin 1024) (n : Fin 1024) :
    V m c main_v23 (ix2 k n) = m ((c : Thread nD τ).loc main_arg11) (ix2 (gateH k) n) := by
  have e : (V m c main_v23 : S1024x1024.Idx → EReal)
      = truncf (F := Ideal) .bf16 (extractStridedSlice S1024x1024 ![2048, 0] (m ((c : Thread nD τ).loc main_arg11) : FVec Ideal S3072x1024 .f32) slices_S3072x1024_S1024x1024_2048_0) bitsLt_bf16_f32 := by
    dsimp only [Gen.V, Gen.hostOps0]; after_results; all_goals rfl
  rw [e, truncf_apply, slice_gate_hi]

/-! ## The two low parts over a matrix of extended reals -/

/-- The input layer's matrix as launched, typed as a matrix of extended reals. -/
abbrev argW : Mat 2048 2048 := m ((c : Thread nD τ).loc main_arg3)

/-- `V_v5` with the matrix typed as a matrix of extended reals, so that the difference is written `-`. -/
theorem V_v5_sub (k : Fin 1024) (j : Fin 2048) :
    V m c main_v5 (ix2 k j) = argW m c (ix2 (inX k) j) - argW m c (ix2 (inX k) j) :=
  V_v5 m c k j

/-- `V_v9` with the matrix typed as a matrix of extended reals, so that the difference is written `-`. -/
theorem V_v9_sub (k : Fin 1024) (j : Fin 2048) :
    V m c main_v9 (ix2 k j) = argW m c (ix2 (inH k) j) - argW m c (ix2 (inH k) j) :=
  V_v9 m c k j

end Cert.GatedCell.Host

end
-- ==== Proof.Blocks.lean ====
/-
  From blocks to arrays: the kernel program's two results are the gated cell's two arrays.

  The batch of 4096 rows is cut into 32 blocks of 128 rows, one per grid point. At point `t` the kernel reads block `t` of
  the three activations `x`, `h_prev`, `pot_prev` (rows `128 t` … `128 t + 127` of their arrays: `blk_x`, `blk_h`, `blk_pot`)
  and, whole, the thirteen weight and bias arrays the host prologue prepared (`blk_w3` … `blk_w15`), and writes back one
  block of each result. This module proves

  * `pay3_blk`: on block `t` the potential before the threshold is the specification's `potTmp` of the three blocks against
    the whole input layer — the prepared arrays are the upper and lower rows of `W_in` and their differences with themselves,
    which vanish because `W_in` is finite, as `x - x` and `h - h` vanish inside the body because `x` and `h_prev` are;
  * `flushed17_eq`, `flushed16_eq`: what point `t` writes back to the new potential's and the new hidden state's array is block
    `t` of the specification's array `potNextArr` / `hNextArr` of the ARGUMENT arrays: the block is the cell of the blocks
    (the two block lemmas), and a row of the cell reads that row of the activations only (`potNext_congr`, `hNext_congr`);
  * `cover16`, `cover17`: row `r` of a result lies in the block of point `r / 128`, so the 32 blocks tile each result;
  * `final16`, `final17`, `run`: hence after the run each result array IS the specification's array, whole, and the
    arguments are unchanged.

  Finiteness enters only through `pay3_blk`, as three hypotheses on `x`, `h_prev` and `W_in`.
-/
import proofs.«135316_j58360015618523_2_alg».proof.Proof.KernelIdealValue
import proofs.«135316_j58360015618523_2_alg».proof.Proof.Spec
import proofs.«135316_j58360015618523_2_alg».proof.Proof.PotBlock
import proofs.«135316_j58360015618523_2_alg».proof.Proof.StateBlock
import proofs.«135316_j58360015618523_2_alg».proof.Proof.HostSide
import Idealize.ShloMosaic.Lib.ValueIdx
import Idealize.ShloMosaic.Lib.Pipeline.Value

-- membership in a rectangle of these extents: the elaborator's structural look recurses once per coordinate of the long axes
set_option maxRecDepth 16384

noncomputable section

open Idealize.ShloMosaic Idealize.ShloMosaic.TcCoe Idealize.SL.Sem Idealize.ShloMosaic.ValueIdx
open Idealize.ShloMosaic.Pipeline (Dat)

namespace Cert.GatedCell.Arr

open Cert.GatedCell Cert.KernelIdeal Cert.KernelIdeal.Gen

variable (m : (ℓ : Loc nD τ sig) → Buf (Elt Ideal) ℓ) (c : Dev nD)

/-- Row `128 t + p` of the batch: row `p` of block `t`. -/
abbrev rowOf (t : Fin cfg0.N) (p : Fin 128) : Fin 4096 := ⟨128 * t.val + p.val, by have := t.isLt; have := p.isLt; have hN : cfg0.N = 32 := N_0; omega⟩

/-- The printed index maps, decided over the 32 points: the three activations and the two results move by one block of
    rows per point; the thirteen weight and bias windows stay at their one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_16.index t (0 : Fin 2) = t.val ∧ win0_16.index t (1 : Fin 2) = 0)
    ∧ (win0_17.index t (0 : Fin 2) = t.val ∧ win0_17.index t (1 : Fin 2) = 0) :=
  (by decide +kernel : ∀ t : Fin grid0.N, _)

theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-! ## The input blocks, read where the arrays hold them -/

/-- Block `t` of `x`, entry `(p, k)`, is the array's entry `(128 t + p, k)`. -/
theorem blk_x (t : Fin cfg0.N) (p : Fin 128) (k : Fin 1024) :
    iblk m c 0 t (ix2 p k) = m ((c : Thread nD τ).loc main_arg0) (ix2 (rowOf t p) k) := by
  show V m c main_arg0 (((cfg0.win 0).blk t).view.emb (ix2 p k)) = _
  rw [V_main_arg0]
  refine congrArg _ (funext fun a => Fin.ext ?_)
  obtain ⟨⟨e0, e1⟩, -⟩ := idx_facts t
  match a with
  | ⟨0, _⟩ => show win0_0.index t (0 : Fin 2) * 128 + 1 * p.val = 128 * t.val + p.val; omega
  | ⟨1, _⟩ => show win0_0.index t (1 : Fin 2) * 1024 + 1 * k.val = k.val; omega

/-- Block `t` of `h_prev`, entry `(p, k)`, is the array's entry `(128 t + p, k)`. -/
theorem blk_h (t : Fin cfg0.N) (p : Fin 128) (k : Fin 1024) :
    iblk m c 1 t (ix2 p k) = m ((c : Thread nD τ).loc main_arg1) (ix2 (rowOf t p) k) := by
  show V m c main_arg1 (((cfg0.win 1).blk t).view.emb (ix2 p k)) = _
  rw [V_main_arg1]
  refine congrArg _ (funext fun a => Fin.ext ?_)
  obtain ⟨-, ⟨e0, e1⟩, -⟩ := idx_facts t
  match a with
  | ⟨0, _⟩ => show win0_1.index t (0 : Fin 2) * 128 + 1 * p.val = 128 * t.val + p.val; omega
  | ⟨1, _⟩ => show win0_1.index t (1 : Fin 2) * 1024 + 1 * k.val = k.val; omega

/-- Block `t` of `pot_prev`, entry `(p, j)`, is the array's entry `(128 t + p, j)`. -/
theorem blk_pot (t : Fin cfg0.N) (p : Fin 128) (j : Fin 2048) :
    iblk m c 2 t (ix2 p j) = m ((c : Thread nD τ).loc main_arg2) (ix2 (rowOf t p) j) := by
  show V m c main_arg2 (((cfg0.win 2).blk t).view.emb (ix2 p j)) = _
  rw [V_main_arg2]
  refine congrArg _ (funext fun a => Fin.ext ?_)
  obtain ⟨-, -, ⟨e0, e1⟩, -⟩ := idx_facts t
  match a with
  | ⟨0, _⟩ => show win0_2.index t (0 : Fin 2) * 128 + 1 * p.val = 128 * t.val + p.val; omega
  | ⟨1, _⟩ => show win0_2.index t (1 : Fin 2) * 2048 + 1 * j.val = j.val; omega

/-- Window 3 holds its one block, the whole of its array. -/
theorem blk_w3 (t : Fin cfg0.N) (k : Fin 1024) (j : Fin 2048) : iblk m c 3 t (ix2 k j) = (V m c main_v2 : S1024x2048.Idx → EReal) (ix2 k j) := by
  show V m c main_v2 (((cfg0.win 3).blk t).view.emb (ix2 k j)) = _
  refine congrArg _ (funext fun a => Fin.ext ?_)
  obtain ⟨h3, h4, h5, h6, h7, h8, h9, h10, h11, h12, h13, h14, h15⟩ := idx_fixed t
  match a with
  | ⟨0, _⟩ => show win0_3.index t (0 : Fin 2) * 1024 + 1 * k.val = k.val; omega
  | ⟨1, _⟩ => show win0_3.index t (1 : Fin 2) * 2048 + 1 * j.val = j.val; omega

/-- Window 4 holds its one block, the whole of its array. -/
theorem blk_w4 (t : Fin cfg0.N) (k : Fin 1024) (j : Fin 2048) : iblk m c 4 t (ix2 k j) = (V m c main_v5 : S1024x2048.Idx → EReal) (ix2 k j) := by
  show V m c main_v5 (((cfg0.win 4).blk t).view.emb (ix2 k j)) = _
  refine congrArg _ (funext fun a => Fin.ext ?_)
  obtain ⟨h3, h4, h5, h6, h7, h8, h9, h10, h11, h12, h13, h14, h15⟩ := idx_fixed t
  match a with
  | ⟨0, _⟩ => show win0_4.index t (0 : Fin 2) * 1024 + 1 * k.val = k.val; omega
  | ⟨1, _⟩ => show win0_4.index t (1 : Fin 2) * 2048 + 1 * j.val = j.val; omega

/-- Window 5 holds its one block, the whole of its array. -/
theorem blk_w5 (t : Fin cfg0.N) (k : Fin 1024) (j : Fin 2048) : iblk m c 5 t (ix2 k j) = (V m c main_v6 : S1024x2048.Idx → EReal) (ix2 k j) := by
  show V m c main_v6 (((cfg0.win 5).blk t).view.emb (ix2 k j)) = _
  refine congrArg _ (funext fun a => Fin.ext ?_)
  obtain ⟨h3, h4, h5, h6, h7, h8, h9, h10, h11, h12, h13, h14, h15⟩ := idx_fixed t
  match a with
  | ⟨0, _⟩ => show win0_5.index t (0 : Fin 2) * 1024 + 1 * k.val = k.val; omega
  | ⟨1, _⟩ => show win0_5.index t (1 : Fin 2) * 2048 + 1 * j.val = j.val; omega

/-- Window 6 holds its one block, the whole of its array. -/
theorem blk_w6 (t : Fin cfg0.N) (k : Fin 1024) (j : Fin 2048) : iblk m c 6 t (ix2 k j) = (V m c main_v9 : S1024x2048.Idx → EReal) (ix2 k j) := by
  show V m c main_v9 (((cfg0.win 6).blk t).view.emb (ix2 k j)) = _
  refine congrArg _ (funext fun a => Fin.ext ?_)
  obtain ⟨h3, h4, h5, h6, h7, h8, h9, h10, h11, h12, h13, h14, h15⟩ := idx_fixed t
  match a with
  | ⟨0, _⟩ => show win0_6.index t (0 : Fin 2) * 1024 + 1 * k.val = k.val; omega
  | ⟨1, _⟩ => show win0_6.index t (1 : Fin 2) * 2048 + 1 * j.val = j.val; omega

/-- Window 7 holds its one block, the whole of its array. -/
theorem blk_w7 (t : Fin cfg0.N) (z : Fin 1) (j : Fin 2048) : iblk m c 7 t (ix2 z j) = (V m c main_v24 : S1x2048.Idx → EReal) (ix2 z j) := by
  show V m c main_v24 (((cfg0.win 7).blk t).view.emb (ix2 z j)) = _
  refine congrArg _ (funext fun a => Fin.ext ?_)
  obtain ⟨h3, h4, h5, h6, h7, h8, h9, h10, h11, h12, h13, h14, h15⟩ := idx_fixed t
  match a with
  | ⟨0, _⟩ => show win0_7.index t (0 : Fin 2) * 1 + 1 * z.val = z.val; omega
  | ⟨1, _⟩ => show win0_7.index t (1 : Fin 2) * 2048 + 1 * j.val = j.val; omega

/-- Window 8 holds its one block, the whole of its array. -/
theorem blk_w8 (t : Fin cfg0.N) (z : Fin 1) (j : Fin 2048) : iblk m c 8 t (ix2 z j) = (V m c main_v25 : S1x2048.Idx → EReal) (ix2 z j) := by
  show V m c main_v25 (((cfg0.win 8).blk t).view.emb (ix2 z j)) = _
  refine congrArg _ (funext fun a => Fin.ext ?_)
  obtain ⟨h3, h4, h5, h6, h7, h8, h9, h10, h11, h12, h13, h14, h15⟩ := idx_fixed t
  match a with
  | ⟨0, _⟩ => show win0_8.index t (0 : Fin 2) * 1 + 1 * z.val = z.val; omega
  | ⟨1, _⟩ => show win0_8.index t (1 : Fin 2) * 2048 + 1 * j.val = j.val; omega

/-- Window 9 holds its one block, the whole of its array. -/
theorem blk_w9 (t : Fin cfg0.N) (z : Fin 1) (j : Fin 2048) : iblk m c 9 t (ix2 z j) = (V m c main_v26 : S1x2048.Idx → EReal) (ix2 z j) := by
  show V m c main_v26 (((cfg0.win 9).blk t).view.emb (ix2 z j)) = _
  refine congrArg _ (funext fun a => Fin.ext ?_)
  obtain ⟨h3, h4, h5, h6, h7, h8, h9, h10, h11, h12, h13, h14, h15⟩ := idx_fixed t
  match a with
  | ⟨0, _⟩ => show win0_9.index t (0 : Fin 2) * 1 + 1 * z.val = z.val; omega
  | ⟨1, _⟩ => show win0_9.index t (1 : Fin 2) * 2048 + 1 * j.val = j.val; omega

/-- Window 10 holds its one block, the whole of its array. -/
theorem blk_w10 (t : Fin cfg0.N) (k : Fin 2048) (j : Fin 2048) : iblk m c 10 t (ix2 k j) = (V m c main_v15 : S2048x2048.Idx → EReal) (ix2 k j) := by
  show V m c main_v15 (((cfg0.win 10).blk t).view.emb (ix2 k j)) = _
  refine congrArg _ (funext fun a => Fin.ext ?_)
  obtain ⟨h3, h4, h5, h6, h7, h8, h9, h10, h11, h12, h13, h14, h15⟩ := idx_fixed t
  match a with
  | ⟨0, _⟩ => show win0_10.index t (0 : Fin 2) * 2048 + 1 * k.val = k.val; omega
  | ⟨1, _⟩ => show win0_10.index t (1 : Fin 2) * 2048 + 1 * j.val = j.val; omega

/-- Window 11 holds its one block, the whole of its array. -/
theorem blk_w11 (t : Fin cfg0.N) (k : Fin 1024) (j : Fin 2048) : iblk m c 11 t (ix2 k j) = (V m c main_v17 : S1024x2048.Idx → EReal) (ix2 k j) := by
  show V m c main_v17 (((cfg0.win 11).blk t).view.emb (ix2 k j)) = _
  refine congrArg _ (funext fun a => Fin.ext ?_)
  obtain ⟨h3, h4, h5, h6, h7, h8, h9, h10, h11, h12, h13, h14, h15⟩ := idx_fixed t
  match a with
  | ⟨0, _⟩ => show win0_11.index t (0 : Fin 2) * 1024 + 1 * k.val = k.val; omega
  | ⟨1, _⟩ => show win0_11.index t (1 : Fin 2) * 2048 + 1 * j.val = j.val; omega

/-- Window 12 holds its one block, the whole of its array. -/
theorem blk_w12 (t : Fin cfg0.N) (z : Fin 1) (j : Fin 2048) : iblk m c 12 t (ix2 z j) = (V m c main_v19 : S1x2048.Idx → EReal) (ix2 z j) := by
  show V m c main_v19 (((cfg0.win 12).blk t).view.emb (ix2 z j)) = _
  refine congrArg _ (funext fun a => Fin.ext ?_)
  obtain ⟨h3, h4, h5, h6, h7, h8, h9, h10, h11, h12, h13, h14, h15⟩ := idx_fixed t
  match a with
  | ⟨0, _⟩ => show win0_12.index t (0 : Fin 2) * 1 + 1 * z.val = z.val; omega
  | ⟨1, _⟩ => show win0_12.index t (1 : Fin 2) * 2048 + 1 * j.val = j.val; omega

/-- Window 13 holds its one block, the whole of its array. -/
theorem blk_w13 (t : Fin cfg0.N) (k : Fin 2048) (n : Fin 1024) : iblk m c 13 t (ix2 k n) = (V m c main_v21 : S2048x1024.Idx → EReal) (ix2 k n) := by
  show V m c main_v21 (((cfg0.win 13).blk t).view.emb (ix2 k n)) = _
  refine congrArg _ (funext fun a => Fin.ext ?_)
  obtain ⟨h3, h4, h5, h6, h7, h8, h9, h10, h11, h12, h13, h14, h15⟩ := idx_fixed t
  match a with
  | ⟨0, _⟩ => show win0_13.index t (0 : Fin 2) * 2048 + 1 * k.val = k.val; omega
  | ⟨1, _⟩ => show win0_13.index t (1 : Fin 2) * 1024 + 1 * n.val = n.val; omega

/-- Window 14 holds its one block, the whole of its array. -/
theorem blk_w14 (t : Fin cfg0.N) (k : Fin 1024) (n : Fin 1024) : iblk m c 14 t (ix2 k n) = (V m c main_v23 : S1024x1024.Idx → EReal) (ix2 k n) := by
  show V m c main_v23 (((cfg0.win 14).blk t).view.emb (ix2 k n)) = _
  refine congrArg _ (funext fun a => Fin.ext ?_)
  obtain ⟨h3, h4, h5, h6, h7, h8, h9, h10, h11, h12, h13, h14, h15⟩ := idx_fixed t
  match a with
  | ⟨0, _⟩ => show win0_14.index t (0 : Fin 2) * 1024 + 1 * k.val = k.val; omega
  | ⟨1, _⟩ => show win0_14.index t (1 : Fin 2) * 1024 + 1 * n.val = n.val; omega

/-- Window 15 holds its one block, the whole of its array. -/
theorem blk_w15 (t : Fin cfg0.N) (z : Fin 1) (n : Fin 1024) : iblk m c 15 t (ix2 z n) = (V m c main_v27 : S1x1024.Idx → EReal) (ix2 z n) := by
  show V m c main_v27 (((cfg0.win 15).blk t).view.emb (ix2 z n)) = _
  refine congrArg _ (funext fun a => Fin.ext ?_)
  obtain ⟨h3, h4, h5, h6, h7, h8, h9, h10, h11, h12, h13, h14, h15⟩ := idx_fixed t
  match a with
  | ⟨0, _⟩ => show win0_15.index t (0 : Fin 2) * 1 + 1 * z.val = z.val; omega
  | ⟨1, _⟩ => show win0_15.index t (1 : Fin 2) * 1024 + 1 * n.val = n.val; omega

/-! ## What each point writes back -/

theorem hz : (![0, 0] : Fin 2 → Nat) = fun _ => 0 := funext fun a => by fin_cases a <;> rfl

section Finite

variable (hx : (∀ i : (⟨2, ![4096, 1024]⟩ : Shape).Idx, @Ne EReal (m ((c : Thread nD τ).loc main_arg0) i) ⊥ ∧ @Ne EReal (m ((c : Thread nD τ).loc main_arg0) i) ⊤)) (hh : (∀ i : (⟨2, ![4096, 1024]⟩ : Shape).Idx, @Ne EReal (m ((c : Thread nD τ).loc main_arg1) i) ⊥ ∧ @Ne EReal (m ((c : Thread nD τ).loc main_arg1) i) ⊤))
  (hW : (∀ i : (⟨2, ![2048, 2048]⟩ : Shape).Idx, @Ne EReal (m ((c : Thread nD τ).loc main_arg3) i) ⊥ ∧ @Ne EReal (m ((c : Thread nD τ).loc main_arg3) i) ⊤))

include hx hh hW in
/-- The potential before the threshold on block `t`: the blocks of `x`, `h_prev`, `pot_prev` against the whole input layer.
    The lo parts of the split vanish because the inputs are finite. -/
theorem pay3_blk (t : Fin cfg0.N) (p : Fin 128) (j : Fin 2048) :
    k0_pay3 (F := Ideal) (iblk m c 0 t) (iblk m c 1 t) (iblk m c 2 t) (iblk m c 3 t) (iblk m c 4 t) (iblk m c 5 t) (iblk m c 6 t) (iblk m c 7 t) (ix2 p j)
      = potTmp (R := 128) (iblk m c 0 t) (iblk m c 1 t) (iblk m c 2 t) (m ((c : Thread nD τ).loc main_arg3)) (m ((c : Thread nD τ).loc main_arg4)) p j := by
  refine Block.pay3_eq (iblk m c 0 t) (iblk m c 1 t) (iblk m c 2 t) (iblk m c 3 t) (iblk m c 4 t) (iblk m c 5 t) (iblk m c 6 t) (iblk m c 7 t) (m ((c : Thread nD τ).loc main_arg3)) (m ((c : Thread nD τ).loc main_arg4)) ?_ ?_ ?_ ?_ ?_ ?_ ?_ p j
  · intro i
    obtain ⟨p', k, rfl⟩ : ∃ (p' : Fin 128) (k : Fin 1024), i = ix2 p' k := ⟨i 0, i 1, eq_ix2 i⟩
    rw [blk_x]; exact hx _
  · intro i
    obtain ⟨p', k, rfl⟩ : ∃ (p' : Fin 128) (k : Fin 1024), i = ix2 p' k := ⟨i 0, i 1, eq_ix2 i⟩
    rw [blk_h]; exact hh _
  · intro k j; rw [blk_w3, Host.V_v2]
  · intro k j; rw [blk_w4, Host.V_v5]; exact EReal.sub_self (hW _).2 (hW _).1
  · intro k j; rw [blk_w5, Host.V_v6]
  · intro k j; rw [blk_w6, Host.V_v9]; exact EReal.sub_self (hW _).2 (hW _).1
  · intro j; rw [blk_w7, Host.V_v24]

include hx hh hW in
/-- WHAT POINT `t` WRITES BACK to the new potential's array is block `t` of the specification's array. -/
theorem flushed17_eq (t : Fin cfg0.N) :
    (dats m 0 c).flushed 17 t = ((cfg0.win 17).blk t).view.read (Elt Ideal) (potNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [ValueP.flushed17]
  unfold out0_17
  simp only [View.ld_unit_zero (S := S128x1024) hz, View.ld_unit_zero (S := S128x2048) hz, View.ld_unit_zero (S := S1024x2048) hz, View.ld_unit_zero (S := S1x2048) hz]
  funext y
  obtain ⟨p, j, rfl⟩ : ∃ (p : Fin 128) (j : Fin 2048), y = ix2 p j := ⟨y 0, y 1, eq_ix2 y⟩
  have key := ValueP.canon17_eq (F := Ideal) (iblk m c 0 t) (iblk m c 1 t) (iblk m c 2 t) (iblk m c 3 t) (iblk m c 4 t) (iblk m c 5 t) (iblk m c 6 t) (iblk m c 7 t) (iblk m c 8 t) (iblk m c 9 t) (ix2 p j)
  have k2 := Block.E17_eq (iblk m c 0 t) (iblk m c 1 t) (iblk m c 2 t) (iblk m c 3 t) (iblk m c 4 t) (iblk m c 5 t) (iblk m c 6 t) (iblk m c 7 t) (iblk m c 8 t) (iblk m c 9 t) (m ((c : Thread nD τ).loc main_arg3)) (m ((c : Thread nD τ).loc main_arg4)) (m ((c : Thread nD τ).loc main_arg5)) (m ((c : Thread nD τ).loc main_arg6))
    (pay3_blk m c hx hh hW t) (fun j => by rw [blk_w8, Host.V_v25]) (fun j => by rw [blk_w9, Host.V_v26]) p j
  have k3 := potNext_congr (m ((c : Thread nD τ).loc main_arg3)) (m ((c : Thread nD τ).loc main_arg4)) (m ((c : Thread nD τ).loc main_arg5)) (m ((c : Thread nD τ).loc main_arg6)) (b := rowOf t p) (b' := p) (x := (m ((c : Thread nD τ).loc main_arg0))) (h := (m ((c : Thread nD τ).loc main_arg1))) (pot := (m ((c : Thread nD τ).loc main_arg2)))
    (x' := (iblk m c 0 t)) (h' := (iblk m c 1 t)) (pot' := (iblk m c 2 t)) (fun k => blk_x m c t p k) (fun k => blk_h m c t p k) (fun j => blk_pot m c t p j) j
  obtain ⟨-, -, -, -, ⟨e0, e1⟩⟩ := idx_facts t
  have r0 : (((cfg0.win 17).blk t).view.emb (ix2 p j)) 0 = rowOf t p := Fin.ext (by
    show win0_17.index t (0 : Fin 2) * 128 + 1 * p.val = 128 * t.val + p.val; omega)
  have r1 : (((cfg0.win 17).blk t).view.emb (ix2 p j)) 1 = j := Fin.ext (by
    show win0_17.index t (1 : Fin 2) * 2048 + 1 * j.val = j.val; omega)
  have k4 : potNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 17).blk t).view.emb (ix2 p j))
      = potNext (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowOf t p) j := by
    unfold potNextArr
    exact congrArg₂ (potNext (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) r0 r1
  exact key.trans (k2.trans (k3.trans k4.symm))

include hx hh hW in
/-- WHAT POINT `t` WRITES BACK to the new hidden state's array is block `t` of the specification's array. -/
theorem flushed16_eq (t : Fin cfg0.N) :
    (dats m 0 c).flushed 16 t = ((cfg0.win 16).blk t).view.read (Elt Ideal) (hNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [ValueP.flushed16]
  unfold out0_16
  simp only [View.ld_unit_zero (S := S128x1024) hz, View.ld_unit_zero (S := S128x2048) hz, View.ld_unit_zero (S := S1024x2048) hz, View.ld_unit_zero (S := S1x2048) hz,
    View.ld_unit_zero (S := S2048x2048) hz, View.ld_unit_zero (S := S2048x1024) hz, View.ld_unit_zero (S := S1024x1024) hz, View.ld_unit_zero (S := S1x1024) hz]
  funext y
  obtain ⟨p, n, rfl⟩ : ∃ (p : Fin 128) (n : Fin 1024), y = ix2 p n := ⟨y 0, y 1, eq_ix2 y⟩
  have key := ValueP.canon16_eq (F := Ideal) (iblk m c 1 t) (iblk m c 0 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (iblk m c 14 t) (iblk m c 15 t) (ix2 p n)
  have k2 := Block16.E16_eq (iblk m c 1 t) (iblk m c 0 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (iblk m c 14 t) (iblk m c 15 t) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (pay3_blk m c hx hh hW t) (fun j => by rw [blk_w8, Host.V_v25])
    (fun k n => by rw [blk_w10, Host.V_v15_z]) (fun k n => by rw [blk_w10, Host.V_v15_r])
    (fun k n => by rw [blk_w11, Host.V_v17_z]) (fun k n => by rw [blk_w11, Host.V_v17_r])
    (fun n => by rw [blk_w12, Host.V_v19_z]) (fun n => by rw [blk_w12, Host.V_v19_r])
    (fun k n => by rw [blk_w13, Host.V_v21]) (fun k n => by rw [blk_w14, Host.V_v23]) (fun n => by rw [blk_w15, Host.V_v27]) p n
  have k3 := hNext_congr (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (b := rowOf t p) (b' := p) (x := (m ((c : Thread nD τ).loc main_arg0))) (h := (m ((c : Thread nD τ).loc main_arg1))) (pot := (m ((c : Thread nD τ).loc main_arg2)))
    (x' := (iblk m c 0 t)) (h' := (iblk m c 1 t)) (pot' := (iblk m c 2 t)) (fun k => blk_x m c t p k) (fun k => blk_h m c t p k) (fun j => blk_pot m c t p j) n
  obtain ⟨-, -, -, ⟨e0, e1⟩, -⟩ := idx_facts t
  have r0 : (((cfg0.win 16).blk t).view.emb (ix2 p n)) 0 = rowOf t p := Fin.ext (by
    show win0_16.index t (0 : Fin 2) * 128 + 1 * p.val = 128 * t.val + p.val; omega)
  have r1 : (((cfg0.win 16).blk t).view.emb (ix2 p n)) 1 = n := Fin.ext (by
    show win0_16.index t (1 : Fin 2) * 1024 + 1 * n.val = n.val; omega)
  have k4 : hNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (((cfg0.win 16).blk t).view.emb (ix2 p n))
      = hNext (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (rowOf t p) n := by
    unfold hNextArr
    exact congrArg₂ (hNext (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) r0 r1
  exact key.trans (k2.trans (k3.trans k4.symm))

/-! ## The blocks tile the arrays -/

/-- An index of the new hidden state's array is in point `t`'s block iff each coordinate is in the block's range. -/
theorem mem_blk16 (t : Fin cfg0.N) (i : S4096x1024.Idx) :
    i ∈ ((cfg0.win 16).blk t).view.set ↔ ∀ a : Fin 2, win0_16.index t a * S128x1024.size a ≤ (i a).val ∧ (i a).val < win0_16.index t a * S128x1024.size a + S128x1024.size a := by
  show i ∈ ((View.whole main_v28_0).slice (win0_16.rect t)).set ↔ _
  rw [View.set_slice_whole, Rect.mem_set_unit]
  exact Iff.rfl

/-- Row `r` of the new hidden state lies in the block of point `r / 128`. -/
theorem cover16 (i : S4096x1024.Idx) : ∃ t : Fin cfg0.N, (cfg0.win 16).flush t = true ∧ i ∈ ((cfg0.win 16).blk t).view.set := by
  have hi0 : (i 0).val < 4096 := (i 0).isLt
  have hi1 : (i 1).val < 1024 := (i 1).isLt
  have hN : cfg0.N = 32 := N_0
  have ht : (i 0).val / 128 < cfg0.N := by rw [hN]; omega
  refine ⟨⟨(i 0).val / 128, ht⟩, flush0_16 _, ?_⟩
  rw [mem_blk16]
  obtain ⟨-, -, -, ⟨e0, e1⟩, -⟩ := idx_facts ⟨(i 0).val / 128, ht⟩
  intro a
  match a with
  | ⟨0, _⟩ =>
    show win0_16.index ⟨(i 0).val / 128, ht⟩ (0 : Fin 2) * 128 ≤ (i 0).val ∧ (i 0).val < win0_16.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_16.index ⟨(i 0).val / 128, ht⟩ (1 : Fin 2) * 1024 ≤ (i 1).val ∧ (i 1).val < win0_16.index ⟨(i 0).val / 128, ht⟩ (1 : Fin 2) * 1024 + 1024
    rw [e1]; omega

/-- An index of the new potential's array is in point `t`'s block iff each coordinate is in the block's range. -/
theorem mem_blk17 (t : Fin cfg0.N) (i : S4096x2048.Idx) :
    i ∈ ((cfg0.win 17).blk t).view.set ↔ ∀ a : Fin 2, win0_17.index t a * S128x2048.size a ≤ (i a).val ∧ (i a).val < win0_17.index t a * S128x2048.size a + S128x2048.size a := by
  show i ∈ ((View.whole main_v28_1).slice (win0_17.rect t)).set ↔ _
  rw [View.set_slice_whole, Rect.mem_set_unit]
  exact Iff.rfl

/-- Row `r` of the new potential lies in the block of point `r / 128`. -/
theorem cover17 (i : S4096x2048.Idx) : ∃ t : Fin cfg0.N, (cfg0.win 17).flush t = true ∧ i ∈ ((cfg0.win 17).blk t).view.set := by
  have hi0 : (i 0).val < 4096 := (i 0).isLt
  have hi1 : (i 1).val < 2048 := (i 1).isLt
  have hN : cfg0.N = 32 := N_0
  have ht : (i 0).val / 128 < cfg0.N := by rw [hN]; omega
  refine ⟨⟨(i 0).val / 128, ht⟩, flush0_17 _, ?_⟩
  rw [mem_blk17]
  obtain ⟨-, -, -, -, ⟨e0, e1⟩⟩ := idx_facts ⟨(i 0).val / 128, ht⟩
  intro a
  match a with
  | ⟨0, _⟩ =>
    show win0_17.index ⟨(i 0).val / 128, ht⟩ (0 : Fin 2) * 128 ≤ (i 0).val ∧ (i 0).val < win0_17.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_17.index ⟨(i 0).val / 128, ht⟩ (1 : Fin 2) * 2048 ≤ (i 1).val ∧ (i 1).val < win0_17.index ⟨(i 0).val / 128, ht⟩ (1 : Fin 2) * 2048 + 2048
    rw [e1]; omega

/-! ## The arrays after the run -/

include hx hh hW in
/-- After the run the new hidden state's array is the specification's, whole. -/
theorem final16 : (dats m 0 c).arrAt 16 cfg0.N = hNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 16 (hNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (fun t _ => flushed16_eq m c hx hh hW t) cover16

include hx hh hW in
/-- After the run the new potential's array is the specification's, whole. -/
theorem final17 : (dats m 0 c).arrAt 17 cfg0.N = potNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 17 (potNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed17_eq m c hx hh hW t) cover17

end Finite

/-- THE KERNEL PROGRAM'S RUN with both results named: from a memory whose `x`, `h_prev` and `W_in` are finite, every
    weakly fair execution ends with the new hidden state and the new potential at the specification's arrays of the
    arguments, and the arguments unchanged. -/
theorem run (ρ : Dev nD → PrngReg)
    (hfin : ∀ c : Dev nD, (∀ i : (⟨2, ![4096, 1024]⟩ : Shape).Idx, @Ne EReal (m ((c : Thread nD τ).loc main_arg0) i) ⊥ ∧ @Ne EReal (m ((c : Thread nD τ).loc main_arg0) i) ⊤) ∧ (∀ i : (⟨2, ![4096, 1024]⟩ : Shape).Idx, @Ne EReal (m ((c : Thread nD τ).loc main_arg1) i) ⊥ ∧ @Ne EReal (m ((c : Thread nD τ).loc main_arg1) i) ⊤) ∧ (∀ i : (⟨2, ![2048, 2048]⟩ : Shape).Idx, @Ne EReal (m ((c : Thread nD τ).loc main_arg3) i) ⊥ ∧ @Ne EReal (m ((c : Thread nD τ).loc main_arg3) i) ⊤)) :
    θ_run defs (onTc (τ := τ) (main (F := Ideal))) ⟨m, fun _ => 0, ρ⟩ fun r => ∀ c : Dev nD,
      r.2.mem ((c : Thread nD τ).loc main_v28_0) = hNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v28_1) = potNextArr (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final16 m c (hfin c).1 (hfin c).2.1 (hfin c).2.2),
      (h c).2.1.trans (final17 m c (hfin c).1 (hfin c).2.1 (hfin c).2.2), (h c).2.2⟩)
    (ValueP.run_blocks m ρ)

end Cert.GatedCell.Arr

end
-- ==== Proof.lean ====
/-
  `Cert.Claim`: a gated recurrent cell, fused into one kernel over 32 blocks of 128 batch rows, against its plain reference.

  Both programs compute, from the activations `x`, `h_prev`, `pot_prev` and the weights of an input layer and three gates,

    p = pot_prev + (([x | h_prev] · W_in) + b_in),   s = [tresh < p],   a = s · p,   pot_next = p · (1 − s) · decay,
    z = σ([a | h_prev] · W_z + b_z),   r = σ([a | h_prev] · W_r + b_r),   n = tanh([a | h_prev ∘ r] · W_n + b_n),
    h_next = (1 − z) · h_prev + z · n

  (Proof/Spec.lean states it entry by entry). The kernel differs from the reference in arrangement only: it works block by
  block; it splits `x`, `h_prev` and the two halves of `W_in` into a high and a low sixteen-bit part and sums three products
  per half; it cuts the stacked matrices into their row blocks and multiplies the pieces separately; it fuses the `z` and `r`
  gates into one wider product; it tests `tresh < p` directly where the reference tests `0 < max (p − tresh) 0`; and it has
  one logistic operation where the reference spells `1 / (1 + e^(−y))`. On the extended reals a change of float format is the
  identity, so a low part is an entry minus itself: zero, PROVIDED the entry is finite — the one place the precondition is
  used (Proof/Finite.lean reads it off; Proof/PotBlock.lean uses it). Everything else is commutativity and associativity of
  the extended reals' sum, the splitting of a sum over stacked rows, `0 < max (p − t) 0 ↔ t < p`, and the definition of the
  logistic function.

  The five conjuncts: the three frames are the generated ones (the reference's is its generated run with the results
  dropped); `preserves` is the idealization rule's statement at its two sites; `algebraic` sets the kernel program's run with
  both results named (Proof/Blocks.lean, over Proof/PotBlock.lean, Proof/StateBlock.lean and Proof/HostSide.lean) beside the
  reference's generated run read back as the same two arrays (Proof/RefSide.lean).
-/
import proofs.«135316_j58360015618523_2_alg».proof.Defs
import proofs.«135316_j58360015618523_2_alg».proof.Proof.Gen.Kernel
import proofs.«135316_j58360015618523_2_alg».proof.Proof.Gen.Kernel.Skeleton
import proofs.«135316_j58360015618523_2_alg».proof.Proof.Gen.Kernel.Launch
import proofs.«135316_j58360015618523_2_alg».proof.Proof.Gen.Kernel.Points
import proofs.«135316_j58360015618523_2_alg».proof.Proof.Gen.Kernel.Frame
import proofs.«135316_j58360015618523_2_alg».proof.Proof.Gen.KernelIdeal
import proofs.«135316_j58360015618523_2_alg».proof.Proof.Gen.KernelIdeal.Skeleton
import proofs.«135316_j58360015618523_2_alg».proof.Proof.Gen.KernelIdeal.Launch
import proofs.«135316_j58360015618523_2_alg».proof.Proof.Gen.KernelIdeal.Points
import proofs.«135316_j58360015618523_2_alg».proof.Proof.Gen.KernelIdeal.Frame
import proofs.«135316_j58360015618523_2_alg».proof.Proof.Gen.ReferenceIdeal
import proofs.«135316_j58360015618523_2_alg».proof.Proof.KernelIdealValue
import proofs.«135316_j58360015618523_2_alg».proof.Proof.Gen.ReferenceIdeal.Run
import proofs.«135316_j58360015618523_2_alg».proof.Proof.Gen.ReferenceIdeal.Read
import proofs.«135316_j58360015618523_2_alg».proof.Proof.Gen.Pre_finite_inputs
import proofs.«135316_j58360015618523_2_alg».proof.Proof.Spec
import proofs.«135316_j58360015618523_2_alg».proof.Proof.Finite
import proofs.«135316_j58360015618523_2_alg».proof.Proof.RefSide
import proofs.«135316_j58360015618523_2_alg».proof.Proof.Blocks
import Idealize.ShloMosaic.Adequacy
import Idealize.ShloMosaic.Init

noncomputable section

namespace Cert.Proof

open Idealize.ShloMosaic Idealize.SL.Sem Cert.GatedCell

/-- The word-level kernel program runs and keeps its arguments: its generated frame. -/
theorem frame_kernel : Cert.frame_Kernel := fun m ρ _ => Cert.Kernel.Gen.frame m ρ

/-- The idealized kernel program runs and keeps its arguments: its generated frame. -/
theorem frame_kernelIdeal : Cert.frame_KernelIdeal := fun m ρ _ => Cert.KernelIdeal.Gen.frame m ρ

/-- The idealized reference runs and keeps its arguments: its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two rewrites of the idealization, `extf (truncf v) ↦ v` on the blocks of `x` and of `h_prev`: each is the rule's statement
    at that shape and those two formats. -/
theorem preserves : Cert.preserves_Kernel_KernelIdeal :=
  ⟨IdealRules.truncf_extf.statement Cert.KernelIdeal.S128x1024 .f32 .bf16, IdealRules.truncf_extf.statement Cert.KernelIdeal.S128x1024 .f32 .bf16⟩

/-- On the extended reals the kernel program and the reference, run from memories that agree on the thirteen arguments, end
    with equal results: both the new hidden state and the new potential are the specification's arrays of the arguments
    (the kernel's by its blocks, which need `x`, `h_prev` and `W_in` finite for the lo parts of its split products to
    vanish; the reference's operation by operation, with no finiteness). -/
theorem algebraic : Cert.algebraic_KernelIdeal_ReferenceIdeal := by
  intro m ρ m' ρ' hpre hagree
  refine ⟨_, _, Cert.GatedCell.Arr.run m ρ (fun c => Cert.GatedCell.Finite.finite_args m hpre c), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12⟩ := hagree c
    rw [Cert.ReferenceIdeal.Read.val_main_v52_eq, Cert.GatedCell.Ref.ref_hNext, a0, a1, a2, a3, a4, a5, a7, a8, a9, a10, a11, a12]
  · obtain ⟨a0, a1, a2, a3, a4, a5, a6, a7, a8, a9, a10, a11, a12⟩ := hagree c
    rw [Cert.ReferenceIdeal.Read.val_main_v19_eq, Cert.GatedCell.Ref.ref_potNext, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
